-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x22 : Shape := ⟨2, ![4096, 22]⟩
abbrev S22x256 : Shape := ⟨2, ![22, 256]⟩
abbrev S512x256 : Shape := ⟨2, ![512, 256]⟩
abbrev S_ : Shape := ⟨0, ![]⟩
abbrev S4096x256 : Shape := ⟨2, ![4096, 256]⟩
abbrev S256x4096 : Shape := ⟨2, ![256, 4096]⟩
abbrev S4096x4096 : Shape := ⟨2, ![4096, 4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x22 : S_.BroadcastsInDim S4096x22 (![] : Fin 0 → Fin S4096x22.rank)
  reducesTo_S4096x22_S_d0_1 : S4096x22.ReducesTo [0, 1] S_
  bcast_S_S22x256 : S_.BroadcastsInDim S22x256 (![] : Fin 0 → Fin S22x256.rank)
  reducesTo_S22x256_S_d0_1 : S22x256.ReducesTo [0, 1] S_
  bcast_S_S512x256 : S_.BroadcastsInDim S512x256 (![] : Fin 0 → Fin S512x256.rank)
  reducesTo_S512x256_S_d0_1 : S512x256.ReducesTo [0, 1] S_
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x512_S512x256_S4096x256_1_0_0_1_n_n_wf : DotDims.WF S4096x512 S512x256 S4096x256 [1] [0] [0] [1] [] []
  dot_S4096x256_S256x4096_S4096x4096_1_0_0_1_n_n_wf : DotDims.WF S4096x256 S256x4096 S4096x4096 [1] [0] [0] [1] [] []
  dot_S4096x22_S22x256_S4096x256_1_0_0_1_n_n_wf : DotDims.WF S4096x22 S22x256 S4096x256 [1] [0] [0] [1] [] []

variable [Facts]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x22_S22x256_S4096x256_1_0_0_1_n_n : DotDims S4096x22 S22x256 S4096x256 where
  lhsContracting := [1]
  rhsContracting := [0]
  lhsNonContracting := [0]
  rhsNonContracting := [1]
  lhsBatch := []
  rhsBatch := []
  wf := dot_S4096x22_S22x256_S4096x256_1_0_0_1_n_n_wf
def fn_part4 {F : FTy → Type} [FloatOps F] (main_arg1 : FVec F S4096x22 .f32) (main_arg6 : FVec F S22x256 .f32) (main_v66 : IVec S_ 1) (main_v70 : FVec F S4096x4096 .f32) : IVec S_ 1 :=
  let main_cst_23 : FVec F S_ .f32 := constant S_ .f32 0x41800000#32
  let main_v71 : FVec F S4096x4096 .f32 := broadcastInDim S4096x4096 ![] bcast_S_S4096x4096 main_cst_23
  let main_v72 : FVec F S4096x4096 .f32 := Host.divf main_v70 main_v71
  let main_v73 : FVec F S4096x256 .f32 := (fun l r => Host.dotGeneral dot_S4096x22_S22x256_S4096x256_1_0_0_1_n_n none l r) main_arg1 main_arg6
  let main_v74 : FVec F S256x4096 .f32 := (transpose S256x4096 [1, 0] · transposes_S4096x256_S256x4096_1_0) main_v73
  let main_v75 : FVec F S4096x4096 .f32 := (fun l r => Host.dotGeneral dot_S4096x256_S256x4096_S4096x4096_1_0_0_1_n_n none l r) main_v73 main_v74
  let main_cst_24 : FVec F S_ .f32 := constant S_ .f32 0x41800000#32
  let main_v76 : FVec F S4096x4096 .f32 := broadcastInDim S4096x4096 ![] bcast_S_S4096x4096 main_cst_24
  let main_v77 : FVec F S4096x4096 .f32 := Host.divf main_v75 main_v76
  let main_cst_25 : FVec F S_ .f32 := constant S_ .f32 0x00000000#32
  let main_v78 : FVec F S4096x4096 .f32 := broadcastInDim S4096x4096 ![] bcast_S_S4096x4096 main_cst_25
  let main_v79 : FVec F S4096x4096 .f32 := maximumf main_v77 main_v78
  let main_v80 : FVec F S4096x4096 .f32 := Host.exp main_v72
  let main_v81 : FVec F S4096x4096 .f32 := mulf main_v79 main_v80
  let main_cst_26 : FVec F S_ .f32 := constant S_ .f32 0x00000000#32
  let main_v82 : FVec F S_ .f32 := (fun x v => Host.reduceAdd x v reducesTo_S4096x4096_S_d0_1 h_S_) main_v81 main_cst_26
  let main_cst_27 : FVec F S_ .f32 := constant S_ .f32 0x00000000#32
  let main_v83 : IVec S_ 1 := cmpf .une main_v82 main_cst_27
  let main_v84 : IVec S_ 1 := andi main_v66 main_v83
  main_v84

def fn_part3 {F : FTy → Type} [FloatOps F] (main_arg0 : FVec F S4096x512 .f32) (main_arg1 : FVec F S4096x22 .f32) (main_arg2 : FVec F S22x256 .f32) (main_arg6 : FVec F S22x256 .f32) (main_arg7 : FVec F S512x256 .f32) (main_arg8 : FVec F S512x256 .f32) (main_v48 : IVec S_ 1) (main_v49 : FVec F S4096x256 .f32) (main_v51 : FVec F S256x4096 .f32) : IVec S_ 1 :=
  let main_v52 : FVec F S4096x4096 .f32 := (fun l r => Host.dotGeneral dot_S4096x256_S256x4096_S4096x4096_1_0_0_1_n_n none l r) main_v49 main_v51
  let main_cst_18 : FVec F S_ .f32 := constant S_ .f32 0x41800000#32
  let main_v53 : FVec F S4096x4096 .f32 := broadcastInDim S4096x4096 ![] bcast_S_S4096x4096 main_cst_18
  let main_v54 : FVec F S4096x4096 .f32 := Host.divf main_v52 main_v53
  let main_v55 : FVec F S4096x256 .f32 := (fun l r => Host.dotGeneral dot_S4096x22_S22x256_S4096x256_1_0_0_1_n_n none l r) main_arg1 main_arg2
  let main_v56 : FVec F S256x4096 .f32 := (transpose S256x4096 [1, 0] · transposes_S4096x256_S256x4096_1_0) main_v55
  let main_v57 : FVec F S4096x4096 .f32 := (fun l r => Host.dotGeneral dot_S4096x256_S256x4096_S4096x4096_1_0_0_1_n_n none l r) main_v55 main_v56
  let main_cst_19 : FVec F S_ .f32 := constant S_ .f32 0x41800000#32
  let main_v58 : FVec F S4096x4096 .f32 := broadcastInDim S4096x4096 ![] bcast_S_S4096x4096 main_cst_19
  let main_v59 : FVec F S4096x4096 .f32 := Host.divf main_v57 main_v58
  let main_cst_20 : FVec F S_ .f32 := constant S_ .f32 0x00000000#32
  let main_v60 : FVec F S4096x4096 .f32 := broadcastInDim S4096x4096 ![] bcast_S_S4096x4096 main_cst_20
  let main_v61 : FVec F S4096x4096 .f32 := maximumf main_v59 main_v60
  let main_v62 : FVec F S4096x4096 .f32 := Host.exp main_v54
  let main_v63 : FVec F S4096x4096 .f32 := mulf main_v61 main_v62
  let main_cst_21 : FVec F S_ .f32 := constant S_ .f32 0x00000000#32
  let main_v64 : FVec F S_ .f32 := (fun x v => Host.reduceAdd x v reducesTo_S4096x4096_S_d0_1 h_S_) main_v63 main_cst_21
  let main_cst_22 : FVec F S_ .f32 := constant S_ .f32 0x00000000#32
  let main_v65 : IVec S_ 1 := cmpf .une main_v64 main_cst_22
  let main_v66 : IVec S_ 1 := andi main_v48 main_v65
  let main_v67 : FVec F S4096x256 .f32 := (fun l r => Host.dotGeneral dot_S4096x512_S512x256_S4096x256_1_0_0_1_n_n none l r) main_arg0 main_arg7
  let main_v68 : FVec F S4096x256 .f32 := (fun l r => Host.dotGeneral dot_S4096x512_S512x256_S4096x256_1_0_0_1_n_n none l r) main_arg0 main_arg8
  let main_v69 : FVec F S256x4096 .f32 := (transpose S256x4096 [1, 0] · transposes_S4096x256_S256x4096_1_0) main_v68
  let main_v70 : FVec F S4096x4096 .f32 := (fun l r => Host.dotGeneral dot_S4096x256_S256x4096_S4096x4096_1_0_0_1_n_n none l r) main_v67 main_v69
  fn_part4 (F := F) main_arg1 main_arg6 main_v66 main_v70

def fn_part2 {F : FTy → Type} [FloatOps F] (main_arg0 : FVec F S4096x512 .f32) (main_arg1 : FVec F S4096x22 .f32) (main_arg2 : FVec F S22x256 .f32) (main_arg3 : FVec F S512x256 .f32) (main_arg4 : FVec F S512x256 .f32) (main_arg6 : FVec F S22x256 .f32) (main_arg7 : FVec F S512x256 .f32) (main_arg8 : FVec F S512x256 .f32) (main_arg9 : FVec F S512x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S4096x256 .f32 := (fun l r => Host.dotGeneral dot_S4096x512_S512x256_S4096x256_1_0_0_1_n_n none l r) main_arg0 main_arg3
  let main_v50 : FVec F S4096x256 .f32 := (fun l r => Host.dotGeneral dot_S4096x512_S512x256_S4096x256_1_0_0_1_n_n none l r) main_arg0 main_arg4
  let main_v51 : FVec F S256x4096 .f32 := (transpose S256x4096 [1, 0] · transposes_S4096x256_S256x4096_1_0) main_v50
  fn_part3 (F := F) main_arg0 main_arg1 main_arg2 main_arg6 main_arg7 main_arg8 main_v48 main_v49 main_v51

def fn_part1 {F : FTy → Type} [FloatOps F] (main_arg0 : FVec F S4096x512 .f32) (main_arg1 : FVec F S4096x22 .f32) (main_arg2 : FVec F S22x256 .f32) (main_arg3 : FVec F S512x256 .f32) (main_arg4 : FVec F S512x256 .f32) (main_arg5 : FVec F S512x256 .f32) (main_arg6 : FVec F S22x256 .f32) (main_arg7 : FVec F S512x256 .f32) (main_arg8 : FVec F S512x256 .f32) (main_arg9 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S22x256 .f32 := Host.absf main_arg6
  let main_cst_10 : FVec F S_ .f32 := constant S_ .f32 0x7F800000#32
  let main_v30 : FVec F S22x256 .f32 := broadcastInDim S22x256 ![] bcast_S_S22x256 main_cst_10
  let main_v31 : IVec S22x256 1 := cmpf .olt main_v29 main_v30
  let main_c_11 : IVec S_ 1 := constantI S_ 1 1#1
  let main_v32 : IVec S_ 1 := (fun x v => Host.reduce IntOp.andi x v reducesTo_S22x256_S_d0_1 h_S_) main_v31 main_c_11
  let main_v33 : IVec S_ 1 := andi main_v28 main_v32
  fn_part2 (F := F) main_arg0 main_arg1 main_arg2 main_arg3 main_arg4 main_arg6 main_arg7 main_arg8 main_arg9 main_v33

def fn {F : FTy → Type} [FloatOps F] (main_arg0 : FVec F S4096x512 .f32) (main_arg1 : FVec F S4096x22 .f32) (main_arg2 : FVec F S22x256 .f32) (main_arg3 : FVec F S512x256 .f32) (main_arg4 : FVec F S512x256 .f32) (main_arg5 : FVec F S512x256 .f32) (main_arg6 : FVec F S22x256 .f32) (main_arg7 : FVec F S512x256 .f32) (main_arg8 : FVec F S512x256 .f32) (main_arg9 : FVec F S512x256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x22 .f32 := Host.absf main_arg1
  let main_cst_0 : FVec F S_ .f32 := constant S_ .f32 0x7F800000#32
  let main_v5 : FVec F S4096x22 .f32 := broadcastInDim S4096x22 ![] bcast_S_S4096x22 main_cst_0
  let main_v6 : IVec S4096x22 1 := cmpf .olt main_v4 main_v5
  let main_c_1 : IVec S_ 1 := constantI S_ 1 1#1
  let main_v7 : IVec S_ 1 := (fun x v => Host.reduce IntOp.andi x v reducesTo_S4096x22_S_d0_1 h_S_) main_v6 main_c_1
  let main_v8 : IVec S_ 1 := andi main_v3 main_v7
  let main_v9 : FVec F S22x256 .f32 := Host.absf main_arg2
  let main_cst_2 : FVec F S_ .f32 := constant S_ .f32 0x7F800000#32
  let main_v10 : FVec F S22x256 .f32 := broadcastInDim S22x256 ![] bcast_S_S22x256 main_cst_2
  let main_v11 : IVec S22x256 1 := cmpf .olt main_v9 main_v10
  let main_c_3 : IVec S_ 1 := constantI S_ 1 1#1
  let main_v12 : IVec S_ 1 := (fun x v => Host.reduce IntOp.andi x v reducesTo_S22x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg0 main_arg1 main_arg2 main_arg3 main_arg4 main_arg5 main_arg6 main_arg7 main_arg8 main_arg9 main_v13 main_v16
-- ==== Kernel.lean ====
abbrev S4096x512 : Shape := ⟨2, ![4096, 512]⟩
abbrev S4096x22 : Shape := ⟨2, ![4096, 22]⟩
abbrev S22x256 : Shape := ⟨2, ![22, 256]⟩
abbrev S512x256 : Shape := ⟨2, ![512, 256]⟩
abbrev S2x4096x256 : Shape := ⟨3, ![2, 4096, 256]⟩
abbrev S512x512 : Shape := ⟨2, ![512, 512]⟩
abbrev S512x22 : Shape := ⟨2, ![512, 22]⟩
abbrev S2x512x256 : Shape := ⟨3, ![2, 512, 256]⟩
abbrev S1x512x256 : Shape := ⟨3, ![1, 512, 256]⟩
abbrev S2x4096x1 : Shape := ⟨3, ![2, 4096, 1]⟩
abbrev S1x256x256 : Shape := ⟨3, ![1, 256, 256]⟩
abbrev S1x4096x256 : Shape := ⟨3, ![1, 4096, 256]⟩
abbrev S1x256x1 : Shape := ⟨3, ![1, 256, 1]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S_ : Shape := ⟨0, ![]⟩
abbrev S2x1 : Shape := ⟨2, ![2, 1]⟩
abbrev S2 : Shape := ⟨1, ![2]⟩
abbrev S1 : Shape := ⟨1, ![1]⟩

abbrev nBuf : Space → Nat
  | .hbm => 36
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x22, .f32⟩
  | .hbm, ⟨2, _⟩ => ⟨S22x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S22x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S2x4096x256, .bf16⟩
  | .hbm, ⟨11, _⟩ => ⟨S2x4096x256, .bf16⟩
  | .hbm, ⟨12, _⟩ => ⟨S2x4096x256, .bf16⟩
  | .hbm, ⟨13, _⟩ => ⟨S2x4096x256, .bf16⟩
  | .hbm, ⟨14, _⟩ => ⟨S2x4096x256, .f32⟩
  | .hbm, ⟨15, _⟩ => ⟨S2x4096x1, .f32⟩
  | .hbm, ⟨16, _⟩ => ⟨S_, .f32⟩
  | .hbm, ⟨17, _⟩ => ⟨S2x1, .f32⟩
  | .hbm, ⟨18, _⟩ => ⟨S2, .f32⟩
  | .hbm, ⟨19, _⟩ => ⟨S1x4096x256, .f32⟩
  | .hbm, ⟨20, _⟩ => ⟨S4096x256, .f32⟩
  | .hbm, ⟨21, _⟩ => ⟨S1, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S1x4096x256, .f32⟩
  | .hbm, ⟨26, _⟩ => ⟨S4096x256, .f32⟩
  | .hbm, ⟨27, _⟩ => ⟨S1, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x22, .f32⟩
  | .local _ .vmem, ⟨3, _⟩ => ⟨S512x22, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S22x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S22x256, .f32⟩
  | .local _ .vmem, ⟨12, _⟩ => ⟨S2x512x256, .bf16⟩
  | .local _ .vmem, ⟨13, _⟩ => ⟨S2x512x256, .bf16⟩
  | .local _ .vmem, ⟨14, _⟩ => ⟨S2x512x256, .bf16⟩
  | .local _ .vmem, ⟨15, _⟩ => ⟨S2x512x256, .bf16⟩
  | .local _ .vmem, ⟨16, _⟩ => ⟨S2x512x256, .bf16⟩
  | .local _ .vmem, ⟨17, _⟩ => ⟨S2x512x256, .bf16⟩
  | .local _ .vmem, ⟨18, _⟩ => ⟨S2x512x256, .bf16⟩
  | .local _ .vmem, ⟨19, _⟩ => ⟨S2x512x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x4096x256, .bf16⟩
  | .local _ .vmem, ⟨23, _⟩ => ⟨S1x4096x256, .bf16⟩
  | .local _ .vmem, ⟨24, _⟩ => ⟨S1x4096x256, .bf16⟩
  | .local _ .vmem, ⟨25, _⟩ => ⟨S1x4096x256, .bf16⟩
  | .local _ .vmem, ⟨26, _⟩ => ⟨S1x4096x256, .bf16⟩
  | .local _ .vmem, ⟨27, _⟩ => ⟨S1x4096x256, .bf16⟩
  | .local _ .vmem, ⟨28, _⟩ => ⟨S1x256x256, .f32⟩
  | .local _ .vmem, ⟨29, _⟩ => ⟨S1x256x256, .f32⟩
  | .local _ .vmem, ⟨30, _⟩ => ⟨S1x256x1, .f32⟩
  | .local _ .vmem, ⟨31, _⟩ => ⟨S1x256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1_0 : Ref sig .tc := ⟨.hbm, 14, rfl⟩
abbrev main_v1_1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x22 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S22x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S22x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![2, 16], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  v0
def k1_off1 (i : grid1.Coords) : Fin 3 → Nat :=
  let c0_11 : Index := 0#32
  let arg1 : BitVec 32 := BitVec.ofNat 32 (i 1).val
  let c256_i32 : BitVec 32 := 256#32
  let v0 : BitVec 32 := Scalar.muli arg1 c256_i32
  let v1 : BitVec 32 := v0
  let v10 : Index := Scalar.indexCast v1
  let c0_12 : Index := 0#32
  ![0, v10.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x22_S512x22_0_0 : ∀ a, (![0, 0] : Fin 2 → Nat) a + S512x22.size a ≤ S512x22.size a
  h_S512x22 : 0 < S512x22.numel
  inb_S512x256_S512x256_0_0 : ∀ a, (![0, 0] : Fin 2 → Nat) a + S512x256.size a ≤ S512x256.size a
  h_S512x256 : 0 < S512x256.numel
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  shapeCasts_S512x256_S1x512x256 : S512x256.ShapeCasts S1x512x256
  packedbf16_S2x512x256_S1x512x256_0_0_0 : (Rect.unit (s := S2x512x256) ![0, 0, 0] S1x512x256.size inb_S2x512x256_S1x512x256_0_0_0).PackedRows (EltTy.packing .bf16)
  inb_S2x512x256_S1x512x256_1_0_0 : ∀ a, (![1, 0, 0] : Fin 3 → Nat) a + S1x512x256.size a ≤ S2x512x256.size a
  packedbf16_S2x512x256_S1x512x256_1_0_0 : (Rect.unit (s := S2x512x256) ![1, 0, 0] S1x512x256.size inb_S2x512x256_S1x512x256_1_0_0).PackedRows (EltTy.packing .bf16)
  inb_S22x256_S22x256_0_0 : ∀ a, (![0, 0] : Fin 2 → Nat) a + S22x256.size a ≤ S22x256.size a
  h_S22x256 : 0 < S22x256.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S256x4096_S256 : S256x4096.Reduces [1] S256
  shapeCasts_S256_S256x1 : S256.ShapeCasts S256x1
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S2x4096x1_S2x1_d1 : S2x4096x1.ReducesTo [1] S2x1
  h_S_ : 0 < S_.numel
  shapeCasts_S2x1_S2 : S2x1.ShapeCasts S2
  slices_S2x4096x256_S1x4096x256_0_0_0 : S2x4096x256.Slices ![0, 0, 0] S1x4096x256
  slices_S2_S1_0 : S2.Slices ![0] S1
  shapeCasts_S1_S_ : S1.ShapeCasts S_
  bcast_S_S4096x256 : S_.BroadcastsInDim S4096x256 (![] : Fin 0 → Fin S4096x256.rank)
  slices_S2x4096x256_S1x4096x256_1_0_0 : S2x4096x256.Slices ![1, 0, 0] S1x4096x256
  slices_S2_S1_1 : S2.Slices ![1] S1
  concatenates_S4096x256_S4096x256_S4096x512_d1 : Shape.Concatenates [S4096x256, S4096x256] S4096x512 1
  bcast_S_S4096x512 : S_.BroadcastsInDim S4096x512 (![] : Fin 0 → Fin S4096x512.rank)
  dot_S512x512_S512x256_S512x256_1_0_0_1_n_n_wf : DotDims.WF S512x512 S512x256 S512x256 [1] [0] [0] [1] [] []
  dot_S512x22_S22x256_S512x256_1_0_0_1_n_n_wf : DotDims.WF S512x22 S22x256 S512x256 [1] [0] [0] [1] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x22.size a ≤ S4096x22.size a
  hwx0_1 : ∀ i : grid0.Coords, EltTy.bits .f32 = 32 ∨ (Rect.block (s := S4096x22) S512x22.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S22x256.size a ≤ S22x256.size a
  hwx0_5 : ∀ i : grid0.Coords, EltTy.bits .f32 = 32 ∨ (Rect.block (s := S22x256) S22x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S22x256.size a ≤ S22x256.size a
  hwx0_9 : ∀ i : grid0.Coords, EltTy.bits .f32 = 32 ∨ (Rect.block (s := S22x256) S22x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x512x256.size a ≤ S2x4096x256.size a
  hwx0_10 : ∀ i : grid0.Coords, EltTy.bits .bf16 = 32 ∨ (Rect.block (s := S2x4096x256) S2x512x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x512x256.size a ≤ S2x4096x256.size a
  hwx0_11 : ∀ i : grid0.Coords, EltTy.bits .bf16 = 32 ∨ (Rect.block (s := S2x4096x256) S2x512x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x512x256.size a ≤ S2x4096x256.size a
  hwx0_12 : ∀ i : grid0.Coords, EltTy.bits .bf16 = 32 ∨ (Rect.block (s := S2x4096x256) S2x512x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2x512x256.size a ≤ S2x4096x256.size a
  hwx0_13 : ∀ i : grid0.Coords, EltTy.bits .bf16 = 32 ∨ (Rect.block (s := S2x4096x256) S2x512x256.size (cc0_transform_13 i) (hinb0_13 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S1x256x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S2x4096x256.size a
  hwx1_0 : ∀ i : grid1.Coords, EltTy.bits .bf16 = 32 ∨ (Rect.block (s := S2x4096x256) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S2x4096x256.size a
  hwx1_1 : ∀ i : grid1.Coords, EltTy.bits .bf16 = 32 ∨ (Rect.block (s := S2x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S2x4096x256.size a
  hwx1_2 : ∀ i : grid1.Coords, EltTy.bits .bf16 = 32 ∨ (Rect.block (s := S2x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S2x4096x256.size a
  hwx1_3 : ∀ i : grid1.Coords, EltTy.bits .bf16 = 32 ∨ (Rect.block (s := S2x4096x256) S1x4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S2x4096x256.size a
  hwx1_4 : ∀ i : grid1.Coords, EltTy.bits .f32 = 32 ∨ (Rect.block (s := S2x4096x256) S1x256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S2x4096x1.size a
  hwx1_5 : ∀ i : grid1.Coords, EltTy.bits .f32 = 32 ∨ (Rect.block (s := S2x4096x1) S1x256x1.size (cc1_transform_5 i) (hinb1_5 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x22_S22x256_S512x256_1_0_0_1_n_n : DotDims S512x22 S22x256 S512x256 where
  lhsContracting := [1]
  rhsContracting := [0]
  lhsNonContracting := [0]
  rhsNonContracting := [1]
  lhsBatch := []
  rhsBatch := []
  wf := dot_S512x22_S22x256_S512x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x22.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S22x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S22x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S2x512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S2x512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S2x512x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_3) S2x512x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v0_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_3) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S1x4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1x256x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1x256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x22 : Shape := ⟨2, ![4096, 22]⟩
abbrev S22x256 : Shape := ⟨2, ![22, 256]⟩
abbrev S512x256 : Shape := ⟨2, ![512, 256]⟩
abbrev S4096x256 : Shape := ⟨2, ![4096, 256]⟩
abbrev S256x4096 : Shape := ⟨2, ![256, 4096]⟩
abbrev S4096x4096 : Shape := ⟨2, ![4096, 4096]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x22, .f32⟩
  | .hbm, ⟨2, _⟩ => ⟨S22x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S22x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S4096x256, .f32⟩
  | .hbm, ⟨11, _⟩ => ⟨S4096x256, .f32⟩
  | .hbm, ⟨12, _⟩ => ⟨S256x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x256, .f32⟩
  | .hbm, ⟨18, _⟩ => ⟨S256x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S256x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x256, .f32⟩
  | .hbm, ⟨42, _⟩ => ⟨S256x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x256, .f32⟩
  | .hbm, ⟨57, _⟩ => ⟨S4096x256, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  concatenates_S4096x256_S4096x256_S4096x512_d1 : Shape.Concatenates [S4096x256, S4096x256] S4096x512 1
  bcast_S_S4096x512 : S_.BroadcastsInDim S4096x512 (![] : Fin 0 → Fin S4096x512.rank)
  dot_S4096x512_S512x256_S4096x256_1_0_0_1_n_n_wf : DotDims.WF S4096x512 S512x256 S4096x256 [1] [0] [0] [1] [] []
  dot_S4096x256_S256x4096_S4096x4096_1_0_0_1_n_n_wf : DotDims.WF S4096x256 S256x4096 S4096x4096 [1] [0] [0] [1] [] []
  dot_S4096x22_S22x256_S4096x256_1_0_0_1_n_n_wf : DotDims.WF S4096x22 S22x256 S4096x256 [1] [0] [0] [1] [] []
  dot_S4096x4096_S4096x256_S4096x256_1_0_0_1_n_n_wf : DotDims.WF S4096x4096 S4096x256 S4096x256 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x22_S22x256_S4096x256_1_0_0_1_n_n : DotDims S4096x22 S22x256 S4096x256 where
  lhsContracting := [1]
  rhsContracting := [0]
  lhsNonContracting := [0]
  rhsNonContracting := [1]
  lhsBatch := []
  rhsBatch := []
  wf := dot_S4096x22_S22x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Spec.lean ====
/-
  The mathematics both programs are compared through, stated once over plain index types, with no program in sight.

  Arrays are functions on the indices of a literal shape into the extended reals. For one branch, with
  K = x·W_K, Q = x·W_Q, G = box·W_G and V = x·W_V (each a matrix product, `proj`), the score matrix is
    S[i,t] = max ((Σ_d G[i,d]·G[t,d]) · 1/16) 0 · exp ((Σ_d K[i,d]·Q[t,d]) · 1/16)
  and its total T = Σ_i Σ_t S[i,t]. The kernel divides the weighted sums by the total, (Σ_t S[i,t]·V[t,j]) / T
  (`numOver`); the reference normalises first, Σ_t (S[i,t] / T)·V[t,j] (`normThen`). The result places branch 1 in
  columns 0–255 and branch 2 in columns 256–511, scales by the literal 0.1 and adds x (`outOf`).
-/
import Idealize.ShloMosaic.PureOps.Ideal
import Idealize.ShloMosaic.Lib.ValueIdx

noncomputable section

namespace Cert.Spec

open Idealize.ShloMosaic Idealize.ShloMosaic.ValueIdx

/-- A matrix of extended reals over a literal `n0 × n1` shape. -/
abbrev Mat (n0 n1 : Nat) := (⟨2, ![n0, n1]⟩ : Shape).Idx → EReal

/-- The matrix product: entry `(i, j)` is `Σ_q a[i,q] · w[q,j]`. -/
def proj {n k d : Nat} (a : Mat n k) (w : Mat k d) : Mat n d :=
  fun j => ∑ q : Fin k, a (ix2 (j 0) q) * w (ix2 q (j 1))

/-- The real number 1/16 as an extended real: the scale of both score exponents. -/
def sixteenth : EReal := ((1 / 16 : ℝ) : EReal)

/-- The gate of a score: the rows' inner product over the 256 hidden coordinates, scaled, cut off below at zero. -/
def gate (G : Mat 4096 256) (i t : Fin 4096) : EReal :=
  max ((∑ d : Fin 256, G (ix2 i d) * G (ix2 t d)) * sixteenth) 0

/-- The exponent of a score: key row `i` against query row `t`, scaled. -/
def expo (K Q : Mat 4096 256) (i t : Fin 4096) : EReal :=
  (∑ d : Fin 256, K (ix2 i d) * Q (ix2 t d)) * sixteenth

/-- The score matrix `S[i,t] = gate · exp expo`. -/
def score (K Q G : Mat 4096 256) : Mat 4096 4096 :=
  fun j => gate G (j 0) (j 1) * Ideal.exp (expo K Q (j 0) (j 1))

/-- The whole-matrix total of the scores, rows first. -/
def total (S : Mat 4096 4096) : EReal := ∑ i : Fin 4096, ∑ t : Fin 4096, S (ix2 i t)

/-- The kernel's arrangement: the weighted sum of the value rows, then ONE division by the total. -/
def numOver (S : Mat 4096 4096) (V : Mat 4096 256) : Mat 4096 256 :=
  fun j => Ideal.div (∑ t : Fin 4096, S (ix2 (j 0) t) * V (ix2 t (j 1))) (total S)

/-- The reference's arrangement: every score divided by the total, then the weighted sum. -/
def normThen (S : Mat 4096 4096) (V : Mat 4096 256) : Mat 4096 256 :=
  fun j => ∑ t : Fin 4096, Ideal.div (S (ix2 (j 0) t)) (total S) * V (ix2 t (j 1))

/-- One branch's score matrix from the argument arrays. -/
def scoreOf (x : Mat 4096 512) (box : Mat 4096 22) (WG : Mat 22 256) (WK WQ : Mat 512 256) : Mat 4096 4096 :=
  score (proj x WK) (proj x WQ) (proj box WG)

/-- The two branches side by side (branch 1 in columns 0–255, branch 2 in columns 256–511), times the literal
    `0.1` (its f32 word, never evaluated: both programs carry the same word), plus `x`. -/
def outOf (f1 f2 : Mat 4096 256) (x : Mat 4096 512) : Mat 4096 512 :=
  fun j => (if h : (j 1).val < 256 then f1 (ix2 (j 0) ⟨(j 1).val, h⟩)
            else f2 (ix2 (j 0) ⟨(j 1).val - 256, by have := (j 1).isLt; simp at this; omega⟩))
      * Ideal.ofBits .f32 0x3DCCCCCD#32 + x j

/-- What the kernel computes, as one function of the ten argument arrays. -/
def kernelOut (x : Mat 4096 512) (box : Mat 4096 22) (WG1 : Mat 22 256) (WK1 WQ1 WV1 : Mat 512 256)
    (WG2 : Mat 22 256) (WK2 WQ2 WV2 : Mat 512 256) : Mat 4096 512 :=
  outOf (numOver (scoreOf x box WG1 WK1 WQ1) (proj x WV1)) (numOver (scoreOf x box WG2 WK2 WQ2) (proj x WV2)) x

/-- What the reference computes, as one function of the ten argument arrays. -/
def referenceOut (x : Mat 4096 512) (box : Mat 4096 22) (WG1 : Mat 22 256) (WK1 WQ1 WV1 : Mat 512 256)
    (WG2 : Mat 22 256) (WK2 WQ2 WV2 : Mat 512 256) : Mat 4096 512 :=
  outOf (normThen (scoreOf x box WG1 WK1 WQ1) (proj x WV1)) (normThen (scoreOf x box WG2 WK2 WQ2) (proj x WV2)) x

/-- Every entry of an array is a real number (neither infinity). -/
def IsReal {n0 n1 : Nat} (a : Mat n0 n1) : Prop := ∀ j, ∃ r : ℝ, a j = (r : EReal)

end Cert.Spec

end
-- ==== Proof.RefValue.lean ====
/-
  The reference program's result, read index by index, is the specification's referenceOut.

  Each branch of the reference computes, in order: three matrix products of x (keys, queries, values) and one of
  box (the gate features); the exponent K·Qᵀ / 16 and the gate max (G·Gᵀ / 16) 0; the score, the gate times the
  exponential of the exponent; the total of all scores; every score divided by the total; and the product of the
  normalised scores with the values. Division by the literal 16 is multiplication by the real 1/16 on every
  extended real, so no finiteness is used anywhere in this module. The two branches are then placed side by side
  along the columns, scaled by the literal 0.1 (never evaluated) and added to x.
-/
import proofs.«126589_j77129022701585_2_alg».proof.Proof.Gen.ReferenceIdeal.Read
import proofs.«126589_j77129022701585_2_alg».proof.Proof.Spec
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- An f32 array of shape S read as extended reals. -/
abbrev RArr (S : Shape) := (⟨S, .f32⟩ : BufTy).Contents (Elt Ideal)

/-! ## The literal 16 -/

/-- The f32 word 0x41800000 denotes the real number 16. -/
theorem ofBits_sixteen : Ideal.ofBits .f32 0x41800000#32 = ((16 : ℝ) : EReal) := by
  simp [Ideal.ofBits, Ideal.ieee, -EReal.coe_mul]; norm_num

/-- Dividing any extended real by the literal 16 multiplies it by the real 1/16. -/
theorem div_sixteen (y : EReal) : Ideal.div y (Ideal.ofBits .f32 0x41800000#32) = y * sixteenth := by
  rw [ofBits_sixteen, Ideal.div_coe (by norm_num : (16 : ℝ) ≠ 0)]; rfl

/-! ## The matrix products of the arguments -/

/-- A product of x with a 512 × 256 weight is the specification's proj. -/
theorem proj512_eq (x : RArr S4096x512) (w : RArr S512x256) : val_main_v0 (F := Ideal) x w = proj x w := by
  funext i
  rw [val_main_v0_apply]
  show _ = ∑ q : Fin 512, x (ix2 (i 0) q) * w (ix2 q (i 1))
  refine Finset.sum_congr rfl fun k _ => ?_
  have el : lidx_main_v0 i k = ix2 (i 0) k :=
    funext fun a => Fin.ext (by match a with | ⟨0, _⟩ => rfl | ⟨1, _⟩ => rfl)
  have er : ridx_main_v0 i k = ix2 k (i 1) :=
    funext fun a => Fin.ext (by match a with | ⟨0, _⟩ => rfl | ⟨1, _⟩ => rfl)
  rw [el, er]
  rfl

/-- The product of box with a 22 × 256 weight is the specification's proj. -/
theorem proj22_eq (b : RArr S4096x22) (w : RArr S22x256) : val_main_v6 (F := Ideal) b w = proj b w := by
  funext i
  rw [val_main_v6_apply]
  show _ = ∑ q : Fin 22, b (ix2 (i 0) q) * w (ix2 q (i 1))
  refine Finset.sum_congr rfl fun k _ => ?_
  have el : lidx_main_v6 i k = ix2 (i 0) k :=
    funext fun a => Fin.ext (by match a with | ⟨0, _⟩ => rfl | ⟨1, _⟩ => rfl)
  have er : ridx_main_v6 i k = ix2 k (i 1) :=
    funext fun a => Fin.ext (by match a with | ⟨0, _⟩ => rfl | ⟨1, _⟩ => rfl)
  rw [el, er]
  rfl

/-! ## The exponent and the gate -/

/-- The exponent: key row i 0 against query row i 1 (a product with the transposed queries), over 16. -/
theorem expo_eq (x0 : RArr S4096x512) (x3 x4 : RArr S512x256) (i : S4096x4096.Idx) :
    val_main_v5 (F := Ideal) x0 x3 x4 i = expo (proj x0 x3) (proj x0 x4) (i 0) (i 1) := by
  rw [val_main_v5_apply, val_main_v3_apply, val_main_v4_apply, val_main_cst_apply]
  simp only [Ideal.hostDivf_def, Ideal.ofBits_def]
  rw [div_sixteen]
  show _ = (∑ d : Fin 256, proj x0 x3 (ix2 (i 0) d) * proj x0 x4 (ix2 (i 1) d)) * sixteenth
  refine congrArg (· * sixteenth) (Finset.sum_congr rfl fun k _ => ?_)
  have el : lidx_main_v3 i k = ix2 (i 0) k :=
    funext fun a => Fin.ext (by match a with | ⟨0, _⟩ => rfl | ⟨1, _⟩ => rfl)
  have er : idx_main_v2 (ridx_main_v3 i k) = ix2 (i 1) k :=
    funext fun a => Fin.ext (by match a with | ⟨0, _⟩ => rfl | ⟨1, _⟩ => rfl)
  rw [val_main_v2_apply, el, er, proj512_eq]
  exact congrArg (fun f : RArr S4096x256 => proj x0 x3 (ix2 (i 0) k) * f (ix2 (i 1) k)) (proj512_eq x0 x4)

/-- The gate: feature row i 0 against feature row i 1, over 16, cut off below at zero. -/
theorem gate_eq (x1 : RArr S4096x22) (x2 : RArr S22x256) (i : S4096x4096.Idx) :
    val_main_v11 (F := Ideal) x1 x2 i = gate (proj x1 x2) (i 0) (i 1) := by
  rw [val_main_v11_apply, val_main_v10_apply, val_main_v8_apply, val_main_v9_apply, val_main_cst_0_apply,
    val_main_call0_v0_apply, val_main_call0_cst_apply]
  simp only [Ideal.hostDivf_def, Ideal.maximumf_def, Ideal.ofBits_def, Ideal.ofBits_zero_f32]
  rw [div_sixteen]
  show _ = max ((∑ d : Fin 256, proj x1 x2 (ix2 (i 0) d) * proj x1 x2 (ix2 (i 1) d)) * sixteenth) 0
  refine congrArg (fun y : EReal => max (y * sixteenth) 0) (Finset.sum_congr rfl fun k _ => ?_)
  have el : lidx_main_v8 i k = ix2 (i 0) k :=
    funext fun a => Fin.ext (by match a with | ⟨0, _⟩ => rfl | ⟨1, _⟩ => rfl)
  have er : idx_main_v7 (ridx_main_v8 i k) = ix2 (i 1) k :=
    funext fun a => Fin.ext (by match a with | ⟨0, _⟩ => rfl | ⟨1, _⟩ => rfl)
  rw [val_main_v7_apply, el, er, proj22_eq]
  rfl

/-! ## The score, its total, and one branch -/

/-- The score matrix of one branch. -/
theorem score_eq (x0 : RArr S4096x512) (x1 : RArr S4096x22) (x2 : RArr S22x256) (x3 x4 : RArr S512x256) :
    val_main_v13 (F := Ideal) x0 x1 x2 x3 x4 = scoreOf x0 x1 x2 x3 x4 := by
  funext i
  rw [val_main_v13_apply, val_main_v12_apply, gate_eq, expo_eq]
  simp only [Ideal.mulf_def, Ideal.hostUnary_exp_def]
  rfl

/-- The total of the scores: the reduction starts from the zero word, which adds nothing. -/
theorem total_eq (x0 : RArr S4096x512) (x1 : RArr S4096x22) (x2 : RArr S22x256) (x3 x4 : RArr S512x256)
    (i : S_.Idx) : val_main_v14 (F := Ideal) x0 x1 x2 x3 x4 i = total (scoreOf x0 x1 x2 x3 x4) := by
  rw [val_main_v14_apply, val_main_cst_1_apply, score_eq]
  simp only [Ideal.ofBits_def, Ideal.ofBits_zero_f32, zero_add]
  exact sum_idx2 _

/-- One branch: the scores over their total, then the weighted sum of the value rows. -/
theorem branch_eq (x0 : RArr S4096x512) (x1 : RArr S4096x22) (x2 : RArr S22x256) (x3 x4 x5 : RArr S512x256) :
    val_main_v18 (F := Ideal) x0 x1 x2 x3 x4 x5 = normThen (scoreOf x0 x1 x2 x3 x4) (proj x0 x5) := by
  funext i
  rw [val_main_v18_apply]
  show _ = ∑ t : Fin 4096, Ideal.div (scoreOf x0 x1 x2 x3 x4 (ix2 (i 0) t)) (total (scoreOf x0 x1 x2 x3 x4))
    * proj x0 x5 (ix2 t (i 1))
  refine Finset.sum_congr rfl fun k _ => ?_
  have el : lidx_main_v18 i k = ix2 (i 0) k :=
    funext fun a => Fin.ext (by match a with | ⟨0, _⟩ => rfl | ⟨1, _⟩ => rfl)
  have er : ridx_main_v18 i k = ix2 k (i 1) :=
    funext fun a => Fin.ext (by match a with | ⟨0, _⟩ => rfl | ⟨1, _⟩ => rfl)
  have hv : val_main_v17 (F := Ideal) x0 x5 = proj x0 x5 := proj512_eq x0 x5
  rw [val_main_v16_apply, val_main_v15_apply, total_eq, score_eq, hv, el, er]
  rfl

/-- The second branch is the first branch's computation at the second set of weights. -/
theorem branch2_eq (x0 : RArr S4096x512) (x1 : RArr S4096x22) (x6 : RArr S22x256) (x7 x8 x9 : RArr S512x256) :
    val_main_v37 (F := Ideal) x0 x1 x6 x7 x8 x9 = val_main_v18 (F := Ideal) x0 x1 x6 x7 x8 x9 := rfl

/-! ## The two branches side by side -/

/-- Joining two 4096 × 256 arrays along the columns: column c < 256 reads the first at c, any other column
    the second at c - 256. -/
theorem concat_eq (f1 f2 : RArr S4096x256) (j : S4096x512.Idx) :
    concatenate S4096x512 1 [⟨S4096x256, f1⟩, ⟨S4096x256, f2⟩] concatenates_S4096x256_S4096x256_S4096x512_d1 j
      = if h : (j 1).val < 256 then f1 (ix2 (j 0) ⟨(j 1).val, h⟩)
        else f2 (ix2 (j 0) ⟨(j 1).val - 256, by have := (j 1).isLt; simp at this; omega⟩) := by
  by_cases h : (j 1).val < 256
  · rw [dif_pos h]
    exact concatenate_pair_apply_left 1 f1 f2 _ j rfl (ix2 (j 0) ⟨(j 1).val, h⟩)
      (fun b => match b with | ⟨0, _⟩ => rfl | ⟨1, _⟩ => rfl)
  · rw [dif_neg h]
    have h2 : (j 1).val < 512 := (j 1).isLt
    refine concatenate_pair_apply_right 1 f1 f2 _ j rfl rfl (ix2 (j 0) ⟨(j 1).val - 256, by omega⟩)
      (fun b hb => match b, hb with | ⟨0, _⟩, _ => rfl | ⟨1, _⟩, hb => absurd rfl hb) ?_
    show (j 1).val - 256 + 256 = (j 1).val
    omega

/-! ## The whole reference -/

/-- The reference's result is referenceOut of its ten arguments. -/
theorem ref_eq (x0 : (⟨S4096x512, .f32⟩ : BufTy).Contents (Elt Ideal)) (x1 : (⟨S4096x22, .f32⟩ : BufTy).Contents (Elt Ideal))
    (x2 : (⟨S22x256, .f32⟩ : BufTy).Contents (Elt Ideal)) (x3 x4 x5 : (⟨S512x256, .f32⟩ : BufTy).Contents (Elt Ideal))
    (x6 : (⟨S22x256, .f32⟩ : BufTy).Contents (Elt Ideal)) (x7 x8 x9 : (⟨S512x256, .f32⟩ : BufTy).Contents (Elt Ideal)) :
    Cert.ReferenceIdeal.Read.val_main_v41 (F := Ideal) x0 x1 x2 x3 x4 x5 x6 x7 x8 x9
      = Cert.Spec.referenceOut x0 x1 x2 x3 x4 x5 x6 x7 x8 x9 := by
  funext j
  rw [val_main_v41_apply, val_main_v40_apply, val_main_v39_apply, val_main_cst_5_apply]
  simp only [Ideal.addf_def, Ideal.mulf_def, Ideal.ofBits_def]
  unfold val_main_v38
  rw [concat_eq, branch2_eq, branch_eq, branch_eq]
  rfl

end Cert.ReferenceIdeal.RefValue

end
-- ==== Proof.Algebra.lean ====
/-
  The kernel's arrangement of one branch equals the reference's when every argument is a real number.

  With real arguments every matrix product is real (a finite sum of products of reals), so every score
  max (G·Gᵀ/16) 0 · exp (K·Qᵀ/16) is real and so is their total T. For a real T ≠ 0, dividing by T is multiplying
  by the real 1/T, and (Σ_t s_t·v_t)·(1/T) = Σ_t (s_t·(1/T))·v_t is distributivity in ℝ: dividing the weighted sum
  once (the kernel) equals dividing every score first (the reference). Finiteness is essential: over the extended
  reals a product does not distribute over a sum that mixes the two infinities.
-/
import proofs.«126589_j77129022701585_2_alg».proof.Proof.Spec
import Idealize.ShloMosaic.PureOps.Ideal.Laws

noncomputable section

namespace Cert.Spec

open Idealize.ShloMosaic Idealize.ShloMosaic.ValueIdx

/-- The coercion of the reals into the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The heart: over the reals, one division of the weighted sum by T ≠ 0 is the weighted sum of the divided
    scores. -/
theorem div_sum_real {n : Nat} (s v : Fin n → ℝ) (T : ℝ) (hT : T ≠ 0) :
    Ideal.div (∑ t, (s t : EReal) * (v t : EReal)) (T : EReal)
      = ∑ t, Ideal.div (s t : EReal) (T : EReal) * (v t : EReal) := by
  simp only [Ideal.div_coe hT]
  simp only [← EReal.coe_mul, ← coe_sum_real]
  refine congrArg _ ?_
  rw [Finset.sum_mul]
  exact Finset.sum_congr rfl fun t _ => by ring

/-- A matrix product of real matrices is real. -/
theorem isReal_proj {n k d : Nat} {a : Mat n k} {w : Mat k d} (ha : IsReal a) (hw : IsReal w) :
    IsReal (proj a w) := by
  choose ra hra using ha
  choose rw hrw using hw
  intro j
  refine ⟨∑ q : Fin k, ra (ix2 (j 0) q) * rw (ix2 q (j 1)), ?_⟩
  show ∑ q : Fin k, a (ix2 (j 0) q) * w (ix2 q (j 1)) = _
  rw [coe_sum_real]
  exact Finset.sum_congr rfl fun q _ => by rw [hra, hrw, EReal.coe_mul]

/-- The gate of real features is the real max ((Σ_d g[i,d]·g[t,d])·(1/16)) 0. -/
theorem gate_real {G : Mat 4096 256} (g : (⟨2, ![4096, 256]⟩ : Shape).Idx → ℝ) (hg : ∀ j, G j = (g j : EReal))
    (i t : Fin 4096) :
    gate G i t = ((max ((∑ d : Fin 256, g (ix2 i d) * g (ix2 t d)) * (1 / 16)) 0 : ℝ) : EReal) := by
  unfold gate sixteenth
  simp only [hg]
  rw [EReal.coe_strictMono.monotone.map_max, EReal.coe_mul, coe_sum_real, EReal.coe_zero]
  simp only [EReal.coe_mul]

/-- The exponent of real keys and queries is the real (Σ_d k[i,d]·q[t,d])·(1/16). -/
theorem expo_real {K Q : Mat 4096 256} (k q : (⟨2, ![4096, 256]⟩ : Shape).Idx → ℝ)
    (hk : ∀ j, K j = (k j : EReal)) (hq : ∀ j, Q j = (q j : EReal)) (i t : Fin 4096) :
    expo K Q i t = (((∑ d : Fin 256, k (ix2 i d) * q (ix2 t d)) * (1 / 16) : ℝ) : EReal) := by
  unfold expo sixteenth
  simp only [hk, hq]
  rw [EReal.coe_mul, coe_sum_real]
  simp only [EReal.coe_mul]

/-- The scores of real keys, queries and features are real: a real gate times the exponential of a real. -/
theorem isReal_score {K Q G : Mat 4096 256} (hK : IsReal K) (hQ : IsReal Q) (hG : IsReal G) :
    IsReal (score K Q G) := by
  choose k hk using hK
  choose q hq using hQ
  choose g hg using hG
  intro j
  obtain ⟨a, b, rfl⟩ : ∃ (a b : Fin 4096), j = ix2 a b := ⟨j 0, j 1, eq_ix2 j⟩
  refine ⟨max ((∑ d : Fin 256, g (ix2 a d) * g (ix2 b d)) * (1 / 16)) 0
    * Real.exp ((∑ d : Fin 256, k (ix2 a d) * q (ix2 b d)) * (1 / 16)), ?_⟩
  show gate G a b * Ideal.exp (expo K Q a b) = _
  rw [gate_real g hg, expo_real k q hk hq, Ideal.exp_coe, EReal.coe_mul]

/-- With real scores of nonzero total and real values, dividing the weighted sum once is dividing every score
    first. -/
theorem numOver_eq_normThen {S : Mat 4096 4096} {V : Mat 4096 256} (hS : IsReal S) (hV : IsReal V)
    (hT : total S ≠ 0) : numOver S V = normThen S V := by
  choose s hs using hS
  choose v hv using hV
  have hTr : total S = ((∑ i : Fin 4096, ∑ t : Fin 4096, s (ix2 i t) : ℝ) : EReal) := by
    unfold total
    rw [coe_sum_real]
    refine Finset.sum_congr rfl fun i _ => ?_
    rw [coe_sum_real]
    exact Finset.sum_congr rfl fun t _ => hs _
  have hT' : (∑ i : Fin 4096, ∑ t : Fin 4096, s (ix2 i t) : ℝ) ≠ 0 := by
    intro h
    apply hT
    rw [hTr, h]
    rfl
  funext j
  show Ideal.div (∑ t : Fin 4096, S (ix2 (j 0) t) * V (ix2 t (j 1))) (total S)
    = ∑ t : Fin 4096, Ideal.div (S (ix2 (j 0) t)) (total S) * V (ix2 t (j 1))
  rw [hTr]
  simp only [hs, hv]
  exact div_sum_real (fun t => s (ix2 (j 0) t)) (fun t => v (ix2 t (j 1))) _ hT'

/-- On real arguments whose two score totals are nonzero, the kernel's result is the reference's. -/
theorem kernelOut_eq_referenceOut (x : Mat 4096 512) (box : Mat 4096 22) (WG1 : Mat 22 256) (WK1 WQ1 WV1 : Mat 512 256)
    (WG2 : Mat 22 256) (WK2 WQ2 WV2 : Mat 512 256)
    (hx : IsReal x) (hbox : IsReal box) (hG1 : IsReal WG1) (hK1 : IsReal WK1) (hQ1 : IsReal WQ1) (hV1 : IsReal WV1)
    (hG2 : IsReal WG2) (hK2 : IsReal WK2) (hQ2 : IsReal WQ2) (hV2 : IsReal WV2)
    (hT1 : total (scoreOf x box WG1 WK1 WQ1) ≠ 0) (hT2 : total (scoreOf x box WG2 WK2 WQ2) ≠ 0) :
    kernelOut x box WG1 WK1 WQ1 WV1 WG2 WK2 WQ2 WV2 = referenceOut x box WG1 WK1 WQ1 WV1 WG2 WK2 WQ2 WV2 := by
  have hS1 : IsReal (scoreOf x box WG1 WK1 WQ1) :=
    isReal_score (isReal_proj hx hK1) (isReal_proj hx hQ1) (isReal_proj hbox hG1)
  have hS2 : IsReal (scoreOf x box WG2 WK2 WQ2) :=
    isReal_score (isReal_proj hx hK2) (isReal_proj hx hQ2) (isReal_proj hbox hG2)
  unfold kernelOut referenceOut
  rw [numOver_eq_normThen hS1 (isReal_proj hx hV1) hT1, numOver_eq_normThen hS2 (isReal_proj hx hV2) hT2]

end Cert.Spec

end
-- ==== Proof.PreFacts.lean ====
/-
  The precondition read as mathematics. The precondition is one bit: the conjunction of ten statements "every entry
  of the k-th input has absolute value below +∞" and two statements "the branch's score total is not zero".
  Here each conjunct is read off: an extended real x with max x (-x) < +∞ is a real number, so each input is an
  array of reals; and the scalar the precondition compares with zero is the specification's total of the branch's
  score matrix. For the latter, each product of the chain is the specification's matrix product (the contraction
  index is its one coordinate), the product against a transposed array contracts the rows of both arrays, division
  by the literal 16 is multiplication by 1/16 on every extended real, the zero literal is 0, and the float sum over
  both axes from the initial value 0 is the iterated sum, rows first.
-/
import proofs.«126589_j77129022701585_2_alg».proof.Pre_finite_inputs
import proofs.«126589_j77129022701585_2_alg».proof.Proof.Gen.Pre_finite_inputs
import proofs.«126589_j77129022701585_2_alg».proof.Proof.Spec
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Pre_finite_inputs.Decode

open Idealize.ShloMosaic Idealize.ShloMosaic.ValueIdx Cert.Pre_finite_inputs Cert.Pre_finite_inputs.Facts

theorem lhs512_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs512_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs512_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs512_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The host's product over the 512 contracted coordinates is the matrix product of the specification. -/
theorem dot512_eq (x : FVec Ideal S4096x512 .f32) (w : FVec Ideal S512x256 .f32) :
    Host.dotGeneral dot_S4096x512_S512x256_S4096x256_1_0_0_1_n_n none x w = Cert.Spec.proj x w := by
  funext i
  show FloatOps.dotGeneral dot_S4096x512_S512x256_S4096x256_1_0_0_1_n_n none .single x w i = ∑ k : Fin 512, (x (ix2 (i 0) k) : EReal) * (w (ix2 k (i 1)) : EReal)
  rw [Ideal.dotGeneral_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx i ((contrEquiv1 dot_S4096x512_S512x256_S4096x256_1_0_0_1_n_n 512 rfl rfl).symm k) = ix2 (i 0) k := funext fun a => Fin.ext (by
    match a with
    | ⟨0, _⟩ => exact lhs512_0 _ _
    | ⟨1, _⟩ => exact (lhs512_1 _ _).trans hk)
  have er : dot_S4096x512_S512x256_S4096x256_1_0_0_1_n_n.rhsIdx i ((contrEquiv1 dot_S4096x512_S512x256_S4096x256_1_0_0_1_n_n 512 rfl rfl).symm k) = ix2 k (i 1) := funext fun a => Fin.ext (by
    match a with
    | ⟨0, _⟩ => exact (rhs512_0 _ _).trans hk
    | ⟨1, _⟩ => exact rhs512_1 _ _)
  (rw [el, er]) <;> rfl

theorem lhs22_0 (i : S4096x256.Idx) (q : dot_S4096x22_S22x256_S4096x256_1_0_0_1_n_n.contr.Idx) :
    (dot_S4096x22_S22x256_S4096x256_1_0_0_1_n_n.lhsIdx i q 0).val = (i 0).val := by
  unfold DotDims.lhsIdx
  rw [dif_neg (show ¬(0 : Fin S4096x22.rank) ∈ dot_S4096x22_S22x256_S4096x256_1_0_0_1_n_n.lhsBatch by decide), dif_pos (show (0 : Fin S4096x22.rank) ∈ dot_S4096x22_S22x256_S4096x256_1_0_0_1_n_n.lhsNonContracting by decide)]
  rfl
theorem lhs22_1 (i : S4096x256.Idx) (q : dot_S4096x22_S22x256_S4096x256_1_0_0_1_n_n.contr.Idx) :
    (dot_S4096x22_S22x256_S4096x256_1_0_0_1_n_n.lhsIdx i q 1).val = (q ⟨0, by decide⟩).val :=
  dot_S4096x22_S22x256_S4096x256_1_0_0_1_n_n.lhsIdx_val_of_single rfl i q
theorem rhs22_0 (i : S4096x256.Idx) (q : dot_S4096x22_S22x256_S4096x256_1_0_0_1_n_n.contr.Idx) :
    (dot_S4096x22_S22x256_S4096x256_1_0_0_1_n_n.rhsIdx i q 0).val = (q ⟨0, by decide⟩).val :=
  dot_S4096x22_S22x256_S4096x256_1_0_0_1_n_n.rhsIdx_val_of_single rfl i q
theorem rhs22_1 (i : S4096x256.Idx) (q : dot_S4096x22_S22x256_S4096x256_1_0_0_1_n_n.contr.Idx) :
    (dot_S4096x22_S22x256_S4096x256_1_0_0_1_n_n.rhsIdx i q 1).val = (i 1).val := by
  unfold DotDims.rhsIdx
  rw [dif_neg (show ¬(1 : Fin S22x256.rank) ∈ dot_S4096x22_S22x256_S4096x256_1_0_0_1_n_n.rhsBatch by decide), dif_pos (show (1 : Fin S22x256.rank) ∈ dot_S4096x22_S22x256_S4096x256_1_0_0_1_n_n.rhsNonContracting by decide)]
  rfl

/-- The host's product over the 22 contracted coordinates is the matrix product of the specification. -/
theorem dot22_eq (x : FVec Ideal S4096x22 .f32) (w : FVec Ideal S22x256 .f32) :
    Host.dotGeneral dot_S4096x22_S22x256_S4096x256_1_0_0_1_n_n none x w = Cert.Spec.proj x w := by
  funext i
  show FloatOps.dotGeneral dot_S4096x22_S22x256_S4096x256_1_0_0_1_n_n none .single x w i = ∑ k : Fin 22, (x (ix2 (i 0) k) : EReal) * (w (ix2 k (i 1)) : EReal)
  rw [Ideal.dotGeneral_apply, ← Equiv.sum_comp (contrEquiv1 dot_S4096x22_S22x256_S4096x256_1_0_0_1_n_n 22 rfl rfl).symm]
  refine Finset.sum_congr rfl fun k _ => ?_
  have hk := contrEquiv1_symm_val dot_S4096x22_S22x256_S4096x256_1_0_0_1_n_n 22 rfl rfl k
  have el : dot_S4096x22_S22x256_S4096x256_1_0_0_1_n_n.lhsIdx i ((contrEquiv1 dot_S4096x22_S22x256_S4096x256_1_0_0_1_n_n 22 rfl rfl).symm k) = ix2 (i 0) k := funext fun a => Fin.ext (by
    match a with
    | ⟨0, _⟩ => exact lhs22_0 _ _
    | ⟨1, _⟩ => exact (lhs22_1 _ _).trans hk)
  have er : dot_S4096x22_S22x256_S4096x256_1_0_0_1_n_n.rhsIdx i ((contrEquiv1 dot_S4096x22_S22x256_S4096x256_1_0_0_1_n_n 22 rfl rfl).symm k) = ix2 k (i 1) := funext fun a => Fin.ext (by
    match a with
    | ⟨0, _⟩ => exact (rhs22_0 _ _).trans hk
    | ⟨1, _⟩ => exact rhs22_1 _ _)
  (rw [el, er]) <;> rfl

theorem lhs256_0 (i : S4096x4096.Idx) (q : dot_S4096x256_S256x4096_S4096x4096_1_0_0_1_n_n.contr.Idx) :
    (dot_S4096x256_S256x4096_S4096x4096_1_0_0_1_n_n.lhsIdx i q 0).val = (i 0).val := by
  unfold DotDims.lhsIdx
  rw [dif_neg (show ¬(0 : Fin S4096x256.rank) ∈ dot_S4096x256_S256x4096_S4096x4096_1_0_0_1_n_n.lhsBatch by decide), dif_pos (show (0 : Fin S4096x256.rank) ∈ dot_S4096x256_S256x4096_S4096x4096_1_0_0_1_n_n.lhsNonContracting by decide)]
  rfl
theorem lhs256_1 (i : S4096x4096.Idx) (q : dot_S4096x256_S256x4096_S4096x4096_1_0_0_1_n_n.contr.Idx) :
    (dot_S4096x256_S256x4096_S4096x4096_1_0_0_1_n_n.lhsIdx i q 1).val = (q ⟨0, by decide⟩).val :=
  dot_S4096x256_S256x4096_S4096x4096_1_0_0_1_n_n.lhsIdx_val_of_single rfl i q
theorem rhs256_0 (i : S4096x4096.Idx) (q : dot_S4096x256_S256x4096_S4096x4096_1_0_0_1_n_n.contr.Idx) :
    (dot_S4096x256_S256x4096_S4096x4096_1_0_0_1_n_n.rhsIdx i q 0).val = (q ⟨0, by decide⟩).val :=
  dot_S4096x256_S256x4096_S4096x4096_1_0_0_1_n_n.rhsIdx_val_of_single rfl i q
theorem rhs256_1 (i : S4096x4096.Idx) (q : dot_S4096x256_S256x4096_S4096x4096_1_0_0_1_n_n.contr.Idx) :
    (dot_S4096x256_S256x4096_S4096x4096_1_0_0_1_n_n.rhsIdx i q 1).val = (i 1).val := by
  unfold DotDims.rhsIdx
  rw [dif_neg (show ¬(1 : Fin S256x4096.rank) ∈ dot_S4096x256_S256x4096_S4096x4096_1_0_0_1_n_n.rhsBatch by decide), dif_pos (show (1 : Fin S256x4096.rank) ∈ dot_S4096x256_S256x4096_S4096x4096_1_0_0_1_n_n.rhsNonContracting by decide)]
  rfl

/-- The host's product over the 256 contracted coordinates is the matrix product of the specification. -/
theorem dot256_eq (x : FVec Ideal S4096x256 .f32) (w : FVec Ideal S256x4096 .f32) :
    Host.dotGeneral dot_S4096x256_S256x4096_S4096x4096_1_0_0_1_n_n none x w = Cert.Spec.proj x w := by
  funext i
  show FloatOps.dotGeneral dot_S4096x256_S256x4096_S4096x4096_1_0_0_1_n_n none .single x w i = ∑ k : Fin 256, (x (ix2 (i 0) k) : EReal) * (w (ix2 k (i 1)) : EReal)
  rw [Ideal.dotGeneral_apply, ← Equiv.sum_comp (contrEquiv1 dot_S4096x256_S256x4096_S4096x4096_1_0_0_1_n_n 256 rfl rfl).symm]
  refine Finset.sum_congr rfl fun k _ => ?_
  have hk := contrEquiv1_symm_val dot_S4096x256_S256x4096_S4096x4096_1_0_0_1_n_n 256 rfl rfl k
  have el : dot_S4096x256_S256x4096_S4096x4096_1_0_0_1_n_n.lhsIdx i ((contrEquiv1 dot_S4096x256_S256x4096_S4096x4096_1_0_0_1_n_n 256 rfl rfl).symm k) = ix2 (i 0) k := funext fun a => Fin.ext (by
    match a with
    | ⟨0, _⟩ => exact lhs256_0 _ _
    | ⟨1, _⟩ => exact (lhs256_1 _ _).trans hk)
  have er : dot_S4096x256_S256x4096_S4096x4096_1_0_0_1_n_n.rhsIdx i ((contrEquiv1 dot_S4096x256_S256x4096_S4096x4096_1_0_0_1_n_n 256 rfl rfl).symm k) = ix2 k (i 1) := funext fun a => Fin.ext (by
    match a with
    | ⟨0, _⟩ => exact (rhs256_0 _ _).trans hk
    | ⟨1, _⟩ => exact rhs256_1 _ _)
  (rw [el, er]) <;> rfl

/-- The transposed array read at `(k, t)` is the array at `(t, k)`. -/
theorem transpose_at (B : FVec Ideal S4096x256 .f32) (i : S256x4096.Idx) :
    transpose S256x4096 [1, 0] B transposes_S4096x256_S256x4096_1_0 i = B (ix2 (i 1) (i 0)) :=
  transpose_apply [1, 0] B transposes_S4096x256_S256x4096_1_0 i (ix2 (i 1) (i 0)) (fun b => match b with
    | ⟨0, _⟩ => rfl
    | ⟨1, _⟩ => rfl)

/-- Rows of `A` against rows of `B`: the product with the transposed array contracts the 256 hidden coordinates. -/
theorem dotT_apply (A B : FVec Ideal S4096x256 .f32) (j : S4096x4096.Idx) :
    Host.dotGeneral dot_S4096x256_S256x4096_S4096x4096_1_0_0_1_n_n none A (transpose S256x4096 [1, 0] B transposes_S4096x256_S256x4096_1_0) j
      = ∑ d : Fin 256, (A (ix2 (j 0) d) : EReal) * (B (ix2 (j 1) d) : EReal) := by
  rw [dot256_eq]
  unfold Cert.Spec.proj
  refine Finset.sum_congr rfl fun d _ => ?_
  rw [transpose_at]

/-- The word `0x41800000` denotes the real number 16. -/
theorem ofBits_sixteen : Ideal.ofBits .f32 0x41800000#32 = ((16 : ℝ) : EReal) := by
  simp [Ideal.ofBits, Ideal.ieee, -EReal.coe_mul]; norm_num

/-- Division by 16 is multiplication by 1/16, on every extended real. -/
theorem div_sixteen (v : EReal) : Ideal.div v (Ideal.ofBits .f32 0x41800000#32) = v * Cert.Spec.sixteenth := by
  rw [ofBits_sixteen, Ideal.div_coe (by norm_num : (16 : ℝ) ≠ 0)]
  rfl

/-- The float sum over both axes from the initial value zero is the specification's total, rows first. -/
theorem reduce_total (y : FVec Ideal S4096x4096 .f32) :
    Host.reduceAdd y (constant (F := Ideal) S_ .f32 0x00000000#32) reducesTo_S4096x4096_S_d0_1 h_S_ ix0
      = Cert.Spec.total y := by
  show Ideal.hostReduceAdd reducesTo_S4096x4096_S_d0_1 y (Ideal.ofBits .f32 0x00000000#32) ix0 = _
  rw [Ideal.hostReduceAdd_total reducesTo_S4096x4096_S_d0_1 (fun b => b.elim0) y _ ix0, Ideal.ofBits_zero_f32, zero_add,
    sum_idx2]
  rfl

/-- One branch's score array as the precondition's chain computes it. -/
def preScore (x : FVec Ideal S4096x512 .f32) (box : FVec Ideal S4096x22 .f32) (WG : FVec Ideal S22x256 .f32)
    (WK WQ : FVec Ideal S512x256 .f32) : FVec Ideal S4096x4096 .f32 :=
  mulf
    (maximumf
      (Host.divf
        (Host.dotGeneral dot_S4096x256_S256x4096_S4096x4096_1_0_0_1_n_n none
          (Host.dotGeneral dot_S4096x22_S22x256_S4096x256_1_0_0_1_n_n none box WG)
          (transpose S256x4096 [1, 0] (Host.dotGeneral dot_S4096x22_S22x256_S4096x256_1_0_0_1_n_n none box WG) transposes_S4096x256_S256x4096_1_0))
        (broadcastInDim S4096x4096 ![] bcast_S_S4096x4096 (constant S_ .f32 0x41800000#32)))
      (broadcastInDim S4096x4096 ![] bcast_S_S4096x4096 (constant S_ .f32 0x00000000#32)))
    (Host.exp
      (Host.divf
        (Host.dotGeneral dot_S4096x256_S256x4096_S4096x4096_1_0_0_1_n_n none
          (Host.dotGeneral dot_S4096x512_S512x256_S4096x256_1_0_0_1_n_n none x WK)
          (transpose S256x4096 [1, 0] (Host.dotGeneral dot_S4096x512_S512x256_S4096x256_1_0_0_1_n_n none x WQ) transposes_S4096x256_S256x4096_1_0))
        (broadcastInDim S4096x4096 ![] bcast_S_S4096x4096 (constant S_ .f32 0x41800000#32))))

/-- The chain's score array is the specification's score matrix. -/
theorem preScore_eq (x : FVec Ideal S4096x512 .f32) (box : FVec Ideal S4096x22 .f32) (WG : FVec Ideal S22x256 .f32)
    (WK WQ : FVec Ideal S512x256 .f32) : preScore x box WG WK WQ = Cert.Spec.scoreOf x box WG WK WQ := by
  funext j
  show max (Ideal.div (Host.dotGeneral dot_S4096x256_S256x4096_S4096x4096_1_0_0_1_n_n none
          (Host.dotGeneral dot_S4096x22_S22x256_S4096x256_1_0_0_1_n_n none box WG)
          (transpose S256x4096 [1, 0] (Host.dotGeneral dot_S4096x22_S22x256_S4096x256_1_0_0_1_n_n none box WG) transposes_S4096x256_S256x4096_1_0) j)
        (Ideal.ofBits .f32 0x41800000#32)) (Ideal.ofBits .f32 0x00000000#32)
      * Ideal.exp (Ideal.div (Host.dotGeneral dot_S4096x256_S256x4096_S4096x4096_1_0_0_1_n_n none
          (Host.dotGeneral dot_S4096x512_S512x256_S4096x256_1_0_0_1_n_n none x WK)
          (transpose S256x4096 [1, 0] (Host.dotGeneral dot_S4096x512_S512x256_S4096x256_1_0_0_1_n_n none x WQ) transposes_S4096x256_S256x4096_1_0) j)
        (Ideal.ofBits .f32 0x41800000#32)) = _
  rw [dotT_apply, dotT_apply, div_sixteen, div_sixteen, Ideal.ofBits_zero_f32, dot22_eq, dot512_eq, dot512_eq]
  rfl

/-- A comparison "not equal" that holds says the two extended reals differ. -/
theorem ne_of_cmp_une (a b : EReal) (h : Ideal.cmp .une a b = 1#1) : a ≠ b := by
  intro hab
  subst hab
  simp [Ideal.cmp] at h

/-- From the printed comparison of a branch's total against the zero word: the total is not zero. -/
theorem total_ne_zero (x : FVec Ideal S4096x512 .f32) (box : FVec Ideal S4096x22 .f32) (WG : FVec Ideal S22x256 .f32)
    (WK WQ : FVec Ideal S512x256 .f32)
    (h : cmpf .une (Host.reduceAdd (preScore x box WG WK WQ) (constant (F := Ideal) S_ .f32 0x00000000#32)
        reducesTo_S4096x4096_S_d0_1 h_S_) (constant (F := Ideal) S_ .f32 0x00000000#32) ix0 = 1#1) :
    Cert.Spec.total (Cert.Spec.scoreOf x box WG WK WQ) ≠ 0 := by
  have e : Ideal.cmp .une (Host.reduceAdd (preScore x box WG WK WQ) (constant (F := Ideal) S_ .f32 0x00000000#32)
        reducesTo_S4096x4096_S_d0_1 h_S_ ix0) (Ideal.ofBits .f32 0x00000000#32) = 1#1 := h
  rw [reduce_total, preScore_eq, Ideal.ofBits_zero_f32] at e
  exact ne_of_cmp_une _ _ e

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max x (-x)` is below `+∞` is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- `jnp.all (|a| < +∞)` holding says every entry of `a` is a real number. -/
theorem isReal_of_all {n0 n1 : Nat} (a : FVec Ideal (⟨2, ![n0, n1]⟩ : Shape) .f32)
    (hb : S_.BroadcastsInDim (⟨2, ![n0, n1]⟩ : Shape) (![] : Fin 0 → Fin 2))
    (hr : (⟨2, ![n0, n1]⟩ : Shape).ReducesTo [0, 1] S_) (hu : 0 < S_.numel)
    (h : Host.reduce IntOp.andi (cmpf .olt (Host.absf a) (broadcastInDim (⟨2, ![n0, n1]⟩ : Shape) ![] hb (constant (F := Ideal) S_ .f32 0x7F800000#32)))
      (constantI S_ 1 1#1) hr hu ix0 = 1#1) : Cert.Spec.IsReal a := by
  intro j
  have e := Host.reduce_andi_all _ _ hr hu ix0 h j
  have e' : Ideal.cmp .olt (max (a j) (-(a j))) (Ideal.ofBits .f32 0x7F800000#32) = 1#1 := e
  rw [ofBits_inf] at e'
  exact real_of_abs_lt_top _ e'

/-- The precondition decoded: every input is an array of real numbers, and neither branch's score total is zero. -/
theorem of_pre [Cert.Pre_finite_inputs.Facts] (a0 : FVec Ideal Cert.Pre_finite_inputs.S4096x512 .f32)
    (a1 : FVec Ideal Cert.Pre_finite_inputs.S4096x22 .f32) (a2 : FVec Ideal Cert.Pre_finite_inputs.S22x256 .f32)
    (a3 a4 a5 : FVec Ideal Cert.Pre_finite_inputs.S512x256 .f32) (a6 : FVec Ideal Cert.Pre_finite_inputs.S22x256 .f32)
    (a7 a8 a9 : FVec Ideal Cert.Pre_finite_inputs.S512x256 .f32)
    (h : Cert.Pre_finite_inputs.fn (F := Ideal) a0 a1 a2 a3 a4 a5 a6 a7 a8 a9 = fun _ => 1#1) :
    Cert.Spec.IsReal a0 ∧ Cert.Spec.IsReal a1 ∧ Cert.Spec.IsReal a2 ∧ Cert.Spec.IsReal a3 ∧ Cert.Spec.IsReal a4
      ∧ Cert.Spec.IsReal a5 ∧ Cert.Spec.IsReal a6 ∧ Cert.Spec.IsReal a7 ∧ Cert.Spec.IsReal a8 ∧ Cert.Spec.IsReal a9
      ∧ Cert.Spec.total (Cert.Spec.scoreOf a0 a1 a2 a3 a4) ≠ 0 ∧ Cert.Spec.total (Cert.Spec.scoreOf a0 a1 a6 a7 a8) ≠ 0 := by
  have e := congrFun h ix0
  dsimp only [fn, fn_part1, fn_part2, fn_part3, fn_part4] at e
  dsimp only [andi] at e
  simp only [IntOp.andi_eq_one] at e
  obtain ⟨⟨⟨⟨⟨⟨⟨⟨⟨⟨⟨c0, c1⟩, c2⟩, c3⟩, c4⟩, c5⟩, c6⟩, c7⟩, c8⟩, c9⟩, t1⟩, t2⟩ := e
  exact ⟨isReal_of_all a0 _ _ _ c0, isReal_of_all a1 _ _ _ c1, isReal_of_all a2 _ _ _ c2, isReal_of_all a3 _ _ _ c3,
    isReal_of_all a4 _ _ _ c4, isReal_of_all a5 _ _ _ c5, isReal_of_all a6 _ _ _ c6, isReal_of_all a7 _ _ _ c7,
    isReal_of_all a8 _ _ _ c8, isReal_of_all a9 _ _ _ c9, total_ne_zero a0 a1 a2 a3 a4 t1, total_ne_zero a0 a1 a6 a7 a8 t2⟩

end Cert.Pre_finite_inputs.Decode

end
-- ==== Proof.KBody0.lean ====
/-
  Region 0's arithmetic at the extended reals, read at coordinates.

  Each of the eight stored pieces is one matrix product of a 512-row block of an input (x or box) with a whole weight
  matrix, into a zero accumulator, re-laid as a 1 × 512 × 256 piece. A change of float format is the identity at the
  extended reals, so piece entry (0, r, d) is Σ_q l[r,q] · w[q,d].
-/
import proofs.«126589_j77129022701585_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-! ## The two contractions of region 0, read at an index -/

theorem lhsA_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem rhsA_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- A 512 × 512 block times a 512 × 256 matrix into the zero accumulator: entry (a, b) is Σ_q l[a,q] · r[q,b]. -/
theorem mmA {φ₁ φ₂ : FTy} (l : FVec Ideal S512x512 φ₁) (r : FVec Ideal S512x256 φ₂) (a : Fin 512) (b : Fin 256) :
    matmul dot_S512x512_S512x256_S512x256_1_0_0_1_n_n none l r (constant S512x256 .f32 0x00000000#32) (ix2 a b)
      = ∑ q : Fin 512, l (ix2 a q) * r (ix2 q b) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 a b) ((contrEquiv1 dot_S512x512_S512x256_S512x256_1_0_0_1_n_n 512 rfl rfl).symm k) = ix2 a k := funext fun x => Fin.ext (by
    match x with
    | ⟨0, _⟩ => exact lhsA_0 _ _
    | ⟨1, _⟩ => exact (dot_S512x512_S512x256_S512x256_1_0_0_1_n_n.lhsIdx_val_of_single rfl _ _).trans hk)
  have er : dot_S512x512_S512x256_S512x256_1_0_0_1_n_n.rhsIdx (ix2 a b) ((contrEquiv1 dot_S512x512_S512x256_S512x256_1_0_0_1_n_n 512 rfl rfl).symm k) = ix2 k b := funext fun x => Fin.ext (by
    match x with
    | ⟨0, _⟩ => exact (dot_S512x512_S512x256_S512x256_1_0_0_1_n_n.rhsIdx_val_of_single rfl _ _).trans hk
    | ⟨1, _⟩ => exact rhsA_1 _ _)
  rw [el, er]

theorem lhsB_0 (i : S512x256.Idx) (q : dot_S512x22_S22x256_S512x256_1_0_0_1_n_n.contr.Idx) :
    (dot_S512x22_S22x256_S512x256_1_0_0_1_n_n.lhsIdx i q 0).val = (i 0).val := by
  unfold DotDims.lhsIdx
  rw [dif_neg (show ¬(0 : Fin S512x22.rank) ∈ dot_S512x22_S22x256_S512x256_1_0_0_1_n_n.lhsBatch by decide), dif_pos (show (0 : Fin S512x22.rank) ∈ dot_S512x22_S22x256_S512x256_1_0_0_1_n_n.lhsNonContracting by decide)]
  rfl
theorem rhsB_1 (i : S512x256.Idx) (q : dot_S512x22_S22x256_S512x256_1_0_0_1_n_n.contr.Idx) :
    (dot_S512x22_S22x256_S512x256_1_0_0_1_n_n.rhsIdx i q 1).val = (i 1).val := by
  unfold DotDims.rhsIdx
  rw [dif_neg (show ¬(1 : Fin S22x256.rank) ∈ dot_S512x22_S22x256_S512x256_1_0_0_1_n_n.rhsBatch by decide), dif_pos (show (1 : Fin S22x256.rank) ∈ dot_S512x22_S22x256_S512x256_1_0_0_1_n_n.rhsNonContracting by decide)]
  rfl

/-- A 512 × 22 block times a 22 × 256 matrix into the zero accumulator: entry (a, b) is Σ_q l[a,q] · r[q,b]. -/
theorem mmB {φ₁ φ₂ : FTy} (l : FVec Ideal S512x22 φ₁) (r : FVec Ideal S22x256 φ₂) (a : Fin 512) (b : Fin 256) :
    matmul dot_S512x22_S22x256_S512x256_1_0_0_1_n_n none l r (constant S512x256 .f32 0x00000000#32) (ix2 a b)
      = ∑ q : Fin 22, l (ix2 a q) * r (ix2 q b) := by
  simp only [matmul]
  rw [Ideal.matmul_constant_zero_apply, ← Equiv.sum_comp (contrEquiv1 dot_S512x22_S22x256_S512x256_1_0_0_1_n_n 22 rfl rfl).symm]
  refine Finset.sum_congr rfl fun k _ => ?_
  have hk := contrEquiv1_symm_val dot_S512x22_S22x256_S512x256_1_0_0_1_n_n 22 rfl rfl k
  have el : dot_S512x22_S22x256_S512x256_1_0_0_1_n_n.lhsIdx (ix2 a b) ((contrEquiv1 dot_S512x22_S22x256_S512x256_1_0_0_1_n_n 22 rfl rfl).symm k) = ix2 a k := funext fun x => Fin.ext (by
    match x with
    | ⟨0, _⟩ => exact lhsB_0 _ _
    | ⟨1, _⟩ => exact (dot_S512x22_S22x256_S512x256_1_0_0_1_n_n.lhsIdx_val_of_single rfl _ _).trans hk)
  have er : dot_S512x22_S22x256_S512x256_1_0_0_1_n_n.rhsIdx (ix2 a b) ((contrEquiv1 dot_S512x22_S22x256_S512x256_1_0_0_1_n_n 22 rfl rfl).symm k) = ix2 k b := funext fun x => Fin.ext (by
    match x with
    | ⟨0, _⟩ => exact (dot_S512x22_S22x256_S512x256_1_0_0_1_n_n.rhsIdx_val_of_single rfl _ _).trans hk
    | ⟨1, _⟩ => exact rhsB_1 _ _)
  rw [el, er]

/-! ## The eight stored pieces, read at coordinates

A change of format is the identity at the extended reals, so each piece is its product re-laid with a leading unit axis. -/

theorem pay3_apply (l : Vec Ideal S512x512 .f32) (w : Vec Ideal S512x256 .f32) (u : Fin 1) (r : Fin 512) (d : Fin 256) :
    k0_pay3 l w (ix3 u r d) = ∑ q : Fin 512, l (ix2 r q) * w (ix2 q d) := by
  unfold k0_pay3 k0_pay1
  refine (shapeCast_ab_1ab_apply _ _ u r d).trans ?_
  exact mmA _ _ r d

theorem pay4_apply (l : Vec Ideal S512x512 .f32) (w : Vec Ideal S512x256 .f32) (u : Fin 1) (r : Fin 512) (d : Fin 256) :
    k0_pay4 l w (ix3 u r d) = ∑ q : Fin 512, l (ix2 r q) * w (ix2 q d) := by
  unfold k0_pay4 k0_pay1
  refine (shapeCast_ab_1ab_apply _ _ u r d).trans ?_
  exact mmA _ _ r d

theorem pay5_apply (l : Vec Ideal S512x512 .f32) (w : Vec Ideal S512x256 .f32) (u : Fin 1) (r : Fin 512) (d : Fin 256) :
    k0_pay5 l w (ix3 u r d) = ∑ q : Fin 512, l (ix2 r q) * w (ix2 q d) := by
  unfold k0_pay5 k0_pay1
  refine (shapeCast_ab_1ab_apply _ _ u r d).trans ?_
  exact mmA _ _ r d

theorem pay76_apply (l : Vec Ideal S512x512 .f32) (w : Vec Ideal S512x256 .f32) (u : Fin 1) (r : Fin 512) (d : Fin 256) :
    k0_pay7 (k0_pay6 l w) (ix3 u r d) = ∑ q : Fin 512, l (ix2 r q) * w (ix2 q d) := by
  unfold k0_pay7 k0_pay6 k0_pay1
  refine (shapeCast_ab_1ab_apply _ _ u r d).trans ?_
  exact mmA _ _ r d

theorem pay8_apply (l : Vec Ideal S512x512 .f32) (w : Vec Ideal S512x256 .f32) (u : Fin 1) (r : Fin 512) (d : Fin 256) :
    k0_pay8 (k0_pay1 l) w (ix3 u r d) = ∑ q : Fin 512, l (ix2 r q) * w (ix2 q d) := by
  unfold k0_pay8 k0_pay1
  refine (shapeCast_ab_1ab_apply _ _ u r d).trans ?_
  exact mmA _ _ r d

theorem pay9_apply (l : Vec Ideal S512x512 .f32) (w : Vec Ideal S512x256 .f32) (u : Fin 1) (r : Fin 512) (d : Fin 256) :
    k0_pay9 (k0_pay1 l) w (ix3 u r d) = ∑ q : Fin 512, l (ix2 r q) * w (ix2 q d) := by
  unfold k0_pay9 k0_pay1
  refine (shapeCast_ab_1ab_apply _ _ u r d).trans ?_
  exact mmA _ _ r d

theorem pay10_apply (l : Vec Ideal S512x22 .f32) (w : Vec Ideal S22x256 .f32) (u : Fin 1) (r : Fin 512) (d : Fin 256) :
    k0_pay10 (k0_pay2 l) w (ix3 u r d) = ∑ q : Fin 22, l (ix2 r q) * w (ix2 q d) := by
  unfold k0_pay10 k0_pay2
  refine (shapeCast_ab_1ab_apply _ _ u r d).trans ?_
  exact mmB _ _ r d

theorem pay11_apply (l : Vec Ideal S512x22 .f32) (w : Vec Ideal S22x256 .f32) (u : Fin 1) (r : Fin 512) (d : Fin 256) :
    k0_pay11 (k0_pay2 l) w (ix3 u r d) = ∑ q : Fin 22, l (ix2 r q) * w (ix2 q d) := by
  unfold k0_pay11 k0_pay2
  refine (shapeCast_ab_1ab_apply _ _ u r d).trans ?_
  exact mmB _ _ r d

end Cert.KernelIdeal.Hand

end
-- ==== Proof.KRegion0.lean ====
/-
  Region 0 as a whole: after its eight grid points each of its four output arrays holds both branches' projections,
  stacked along the leading axis — entry (b, i, d) is Σ_q a[i,q] · W_b[q,d], with a = x for the keys, queries and
  values and a = box for the gates.

  Point t reads rows 512·t … 512·t + 511 of x and of box and the whole of each weight matrix, and writes the same
  rows of each output; the two stores of a block are its two branches. The eight row blocks tile the 4096 rows.
-/
import proofs.«126589_j77129022701585_2_alg».proof.Proof.KBody0
import proofs.«126589_j77129022701585_2_alg».proof.Proof.Gen.KernelIdeal.Frame
import proofs.«126589_j77129022701585_2_alg».proof.Proof.Spec
import Idealize.ShloMosaic.Lib.ValueLayout

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- Two 4096 × 256 matrices stacked along a leading axis of extent 2. -/
def stack2 (f g : Cert.Spec.Mat 4096 256) : S2x4096x256.Idx → EReal :=
  fun i => if (i 0).val = 0 then f (ix2 (i 1) (i 2)) else g (ix2 (i 1) (i 2))

theorem hz2 : (![0, 0] : Fin 2 → Nat) = fun _ => 0 := funext fun a => by fin_cases a <;> rfl

/-- The printed index maps over the eight points: x, box and the outputs move along the rows with the point, the
    weights stay. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 3) = 0
    ∧ win0_10.index t (1 : Fin 3) = t.val
    ∧ win0_10.index t (2 : Fin 3) = 0
    ∧ win0_11.index t (0 : Fin 3) = 0
    ∧ win0_11.index t (1 : Fin 3) = t.val
    ∧ win0_11.index t (2 : Fin 3) = 0
    ∧ win0_12.index t (0 : Fin 3) = 0
    ∧ win0_12.index t (1 : Fin 3) = t.val
    ∧ win0_12.index t (2 : Fin 3) = 0
    ∧ win0_13.index t (0 : Fin 3) = 0
    ∧ win0_13.index t (1 : Fin 3) = t.val
    ∧ win0_13.index t (2 : Fin 3) = 0 :=
  (by decide +kernel : ∀ t : Fin grid0.N, _)

/-- The block of x at point `t` is rows 512·t … of x. -/
theorem xblk (c : Dev nD) (t : Fin cfg0.N) (r : Fin 512) (q : Fin 512) (R : Fin 4096) (hR : R.val = t.val * 512 + r.val) :
    (iblk0 V c 0 t : Vec Ideal S512x512 .f32) (ix2 r q) = (V c main_arg0 : S4096x512.Idx → EReal) (ix2 R q) := by
  have e := idx0 t
  unfold iblk0
  rw [View.read_apply]
  show (V c main_arg0 : S4096x512.Idx → EReal) _ = _
  refine congrArg _ (funext fun a => Fin.ext ?_)
  match a with
  | ⟨0, _⟩ => show win0_0.index t (0 : Fin 2) * 512 + 1 * r.val = R.val; omega
  | ⟨1, _⟩ => show win0_0.index t (1 : Fin 2) * 512 + 1 * q.val = q.val; omega

/-- The block of box at point `t` is rows 512·t … of box. -/
theorem boxblk (c : Dev nD) (t : Fin cfg0.N) (r : Fin 512) (q : Fin 22) (R : Fin 4096) (hR : R.val = t.val * 512 + r.val) :
    (iblk0 V c 1 t : Vec Ideal S512x22 .f32) (ix2 r q) = (V c main_arg1 : S4096x22.Idx → EReal) (ix2 R q) := by
  have e := idx0 t
  unfold iblk0
  rw [View.read_apply]
  show (V c main_arg1 : S4096x22.Idx → EReal) _ = _
  refine congrArg _ (funext fun a => Fin.ext ?_)
  match a with
  | ⟨0, _⟩ => show win0_1.index t (0 : Fin 2) * 512 + 1 * r.val = R.val; omega
  | ⟨1, _⟩ => show win0_1.index t (1 : Fin 2) * 22 + 1 * q.val = q.val; omega

/-- Input window 2 is its whole array at every point. -/
theorem wblk2 (c : Dev nD) (t : Fin cfg0.N) (p : Fin 512) (q : Fin 256) :
    (iblk0 V c 2 t : Vec Ideal S512x256 .f32) (ix2 p q) = (V c main_arg3 : S512x256.Idx → EReal) (ix2 p q) := by
  have e := idx0 t
  unfold iblk0
  rw [View.read_apply]
  show (V c main_arg3 : S512x256.Idx → EReal) _ = _
  refine congrArg _ (funext fun a => Fin.ext ?_)
  match a with
  | ⟨0, _⟩ => show win0_2.index t (0 : Fin 2) * 512 + 1 * p.val = p.val; omega
  | ⟨1, _⟩ => show win0_2.index t (1 : Fin 2) * 256 + 1 * q.val = q.val; omega

/-- Input window 3 is its whole array at every point. -/
theorem wblk3 (c : Dev nD) (t : Fin cfg0.N) (p : Fin 512) (q : Fin 256) :
    (iblk0 V c 3 t : Vec Ideal S512x256 .f32) (ix2 p q) = (V c main_arg4 : S512x256.Idx → EReal) (ix2 p q) := by
  have e := idx0 t
  unfold iblk0
  rw [View.read_apply]
  show (V c main_arg4 : S512x256.Idx → EReal) _ = _
  refine congrArg _ (funext fun a => Fin.ext ?_)
  match a with
  | ⟨0, _⟩ => show win0_3.index t (0 : Fin 2) * 512 + 1 * p.val = p.val; omega
  | ⟨1, _⟩ => show win0_3.index t (1 : Fin 2) * 256 + 1 * q.val = q.val; omega

/-- Input window 4 is its whole array at every point. -/
theorem wblk4 (c : Dev nD) (t : Fin cfg0.N) (p : Fin 512) (q : Fin 256) :
    (iblk0 V c 4 t : Vec Ideal S512x256 .f32) (ix2 p q) = (V c main_arg5 : S512x256.Idx → EReal) (ix2 p q) := by
  have e := idx0 t
  unfold iblk0
  rw [View.read_apply]
  show (V c main_arg5 : S512x256.Idx → EReal) _ = _
  refine congrArg _ (funext fun a => Fin.ext ?_)
  match a with
  | ⟨0, _⟩ => show win0_4.index t (0 : Fin 2) * 512 + 1 * p.val = p.val; omega
  | ⟨1, _⟩ => show win0_4.index t (1 : Fin 2) * 256 + 1 * q.val = q.val; omega

/-- Input window 5 is its whole array at every point. -/
theorem wblk5 (c : Dev nD) (t : Fin cfg0.N) (p : Fin 22) (q : Fin 256) :
    (iblk0 V c 5 t : Vec Ideal S22x256 .f32) (ix2 p q) = (V c main_arg2 : S22x256.Idx → EReal) (ix2 p q) := by
  have e := idx0 t
  unfold iblk0
  rw [View.read_apply]
  show (V c main_arg2 : S22x256.Idx → EReal) _ = _
  refine congrArg _ (funext fun a => Fin.ext ?_)
  match a with
  | ⟨0, _⟩ => show win0_5.index t (0 : Fin 2) * 22 + 1 * p.val = p.val; omega
  | ⟨1, _⟩ => show win0_5.index t (1 : Fin 2) * 256 + 1 * q.val = q.val; omega

/-- Input window 6 is its whole array at every point. -/
theorem wblk6 (c : Dev nD) (t : Fin cfg0.N) (p : Fin 512) (q : Fin 256) :
    (iblk0 V c 6 t : Vec Ideal S512x256 .f32) (ix2 p q) = (V c main_arg7 : S512x256.Idx → EReal) (ix2 p q) := by
  have e := idx0 t
  unfold iblk0
  rw [View.read_apply]
  show (V c main_arg7 : S512x256.Idx → EReal) _ = _
  refine congrArg _ (funext fun a => Fin.ext ?_)
  match a with
  | ⟨0, _⟩ => show win0_6.index t (0 : Fin 2) * 512 + 1 * p.val = p.val; omega
  | ⟨1, _⟩ => show win0_6.index t (1 : Fin 2) * 256 + 1 * q.val = q.val; omega

/-- Input window 7 is its whole array at every point. -/
theorem wblk7 (c : Dev nD) (t : Fin cfg0.N) (p : Fin 512) (q : Fin 256) :
    (iblk0 V c 7 t : Vec Ideal S512x256 .f32) (ix2 p q) = (V c main_arg8 : S512x256.Idx → EReal) (ix2 p q) := by
  have e := idx0 t
  unfold iblk0
  rw [View.read_apply]
  show (V c main_arg8 : S512x256.Idx → EReal) _ = _
  refine congrArg _ (funext fun a => Fin.ext ?_)
  match a with
  | ⟨0, _⟩ => show win0_7.index t (0 : Fin 2) * 512 + 1 * p.val = p.val; omega
  | ⟨1, _⟩ => show win0_7.index t (1 : Fin 2) * 256 + 1 * q.val = q.val; omega

/-- Input window 8 is its whole array at every point. -/
theorem wblk8 (c : Dev nD) (t : Fin cfg0.N) (p : Fin 512) (q : Fin 256) :
    (iblk0 V c 8 t : Vec Ideal S512x256 .f32) (ix2 p q) = (V c main_arg9 : S512x256.Idx → EReal) (ix2 p q) := by
  have e := idx0 t
  unfold iblk0
  rw [View.read_apply]
  show (V c main_arg9 : S512x256.Idx → EReal) _ = _
  refine congrArg _ (funext fun a => Fin.ext ?_)
  match a with
  | ⟨0, _⟩ => show win0_8.index t (0 : Fin 2) * 512 + 1 * p.val = p.val; omega
  | ⟨1, _⟩ => show win0_8.index t (1 : Fin 2) * 256 + 1 * q.val = q.val; omega

/-- Input window 9 is its whole array at every point. -/
theorem wblk9 (c : Dev nD) (t : Fin cfg0.N) (p : Fin 22) (q : Fin 256) :
    (iblk0 V c 9 t : Vec Ideal S22x256 .f32) (ix2 p q) = (V c main_arg6 : S22x256.Idx → EReal) (ix2 p q) := by
  have e := idx0 t
  unfold iblk0
  rw [View.read_apply]
  show (V c main_arg6 : S22x256.Idx → EReal) _ = _
  refine congrArg _ (funext fun a => Fin.ext ?_)
  match a with
  | ⟨0, _⟩ => show win0_9.index t (0 : Fin 2) * 22 + 1 * p.val = p.val; omega
  | ⟨1, _⟩ => show win0_9.index t (1 : Fin 2) * 256 + 1 * q.val = q.val; omega

/-- What point `t` writes back through output window 10: rows 512·t … 512·t + 511 of both branches' products. -/
theorem flushed10 (c : Dev nD) (t : Fin cfg0.N) :
    (dat0 V c).flushed 10 t = ((cfg0.win 10).blk t).view.read (Elt Ideal)
      (stack2 (Cert.Spec.proj (V c main_arg0) (V c main_arg3)) (Cert.Spec.proj (V c main_arg0) (V c main_arg7))) := by
  show (cfg0.win 10).cut (grid0.coords t) ((dat0 V c).after 10 t) = _
  rw [after0_10]
  funext y
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
     = stack2 (Cert.Spec.proj (V c main_arg0) (V c main_arg3)) (Cert.Spec.proj (V c main_arg0) (V c main_arg7)) (((cfg0.win 10).blk t).view.emb y)
  unfold out0_10
  refine View.canon_apply_of_pieces (Val := Elt Ideal) (fun y => stack2 (Cert.Spec.proj (V c main_arg0) (V c main_arg3)) (Cert.Spec.proj (V c main_arg0) (V c main_arg7)) (((cfg0.win 10).blk t).view.emb y)) _ ?_ y (cover0_10 _ _ y)
  have hN : t.val < 8 := Nat.lt_of_lt_of_eq t.isLt N_0
  have e := idx0 t
  intro p hp
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay4_apply (iblk0 V c 0 t) (iblk0 V c 6 t) u r d).trans ?_
    have hidx : ((cfg0.win 10).blk t).view.emb (r0_4.emb (ix3 u r d)) = ix3 (1 : Fin 2) (⟨t.val * 512 + r.val, by omega⟩ : Fin 4096) d := by
      funext a; apply Fin.ext
      match a with
      | ⟨0, _⟩ => show win0_10.index t (0 : Fin 3) * 2 + 1 * (1 + 1 * u.val) = 1; have := u.isLt; omega
      | ⟨1, _⟩ => show win0_10.index t (1 : Fin 3) * 512 + 1 * (0 + 1 * r.val) = t.val * 512 + r.val; omega
      | ⟨2, _⟩ => show win0_10.index t (2 : Fin 3) * 256 + 1 * (0 + 1 * d.val) = d.val; omega
    show _ = stack2 _ _ (((cfg0.win 10).blk t).view.emb (r0_4.emb (ix3 u r d)))
    rw [hidx]
    refine Eq.trans ?_ (show Cert.Spec.proj (V c main_arg0) (V c main_arg7) (ix2 (⟨t.val * 512 + r.val, by omega⟩ : Fin 4096) d) = _ from rfl)
    unfold Cert.Spec.proj
    exact Finset.sum_congr rfl fun q _ => congrArg₂ (fun a b : EReal => a * b) (xblk V c t r q _ rfl) (wblk6 V c t q d)
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay3_apply (iblk0 V c 0 t) (iblk0 V c 2 t) u r d).trans ?_
    have hidx : ((cfg0.win 10).blk t).view.emb (r0_3.emb (ix3 u r d)) = ix3 (0 : Fin 2) (⟨t.val * 512 + r.val, by omega⟩ : Fin 4096) d := by
      funext a; apply Fin.ext
      match a with
      | ⟨0, _⟩ => show win0_10.index t (0 : Fin 3) * 2 + 1 * (0 + 1 * u.val) = 0; have := u.isLt; omega
      | ⟨1, _⟩ => show win0_10.index t (1 : Fin 3) * 512 + 1 * (0 + 1 * r.val) = t.val * 512 + r.val; omega
      | ⟨2, _⟩ => show win0_10.index t (2 : Fin 3) * 256 + 1 * (0 + 1 * d.val) = d.val; omega
    show _ = stack2 _ _ (((cfg0.win 10).blk t).view.emb (r0_3.emb (ix3 u r d)))
    rw [hidx]
    refine Eq.trans ?_ (show Cert.Spec.proj (V c main_arg0) (V c main_arg3) (ix2 (⟨t.val * 512 + r.val, by omega⟩ : Fin 4096) d) = _ from rfl)
    unfold Cert.Spec.proj
    exact Finset.sum_congr rfl fun q _ => congrArg₂ (fun a b : EReal => a * b) (xblk V c t r q _ rfl) (wblk2 V c t q d)
  exact absurd hp (List.not_mem_nil)

/-- An index of output 10's array is in point `t`'s block iff each coordinate is in the block's range on its axis. -/
theorem mem_blk10 (t : Fin cfg0.N) (i : S2x4096x256.Idx) :
    i ∈ ((cfg0.win 10).blk t).view.set ↔ ∀ a : Fin 3, win0_10.index t a * S2x512x256.size a ≤ (i a).val ∧ (i a).val < win0_10.index t a * S2x512x256.size a + S2x512x256.size a := by
  show i ∈ ((View.whole main_v0_0).slice (win0_10.rect t)).set ↔ _
  rw [View.set_slice_whole, Rect.mem_set_unit]
  exact Iff.rfl

/-- The eight row blocks cover output 10's array: row `r` is in the block of point `r / 512`. -/
theorem cover10 (i : S2x4096x256.Idx) : ∃ t : Fin cfg0.N, (cfg0.win 10).flush t = true ∧ i ∈ ((cfg0.win 10).blk t).view.set := by
  have h0 : (i 0).val < 2 := (i 0).isLt
  have h1 : (i 1).val < 4096 := (i 1).isLt
  have h2 : (i 2).val < 256 := (i 2).isLt
  have hb : (i 1).val / 512 < cfg0.N := by show _ < grid0.N; rw [N_0]; omega
  have e := idx0 ⟨(i 1).val / 512, hb⟩
  have ht : (⟨(i 1).val / 512, hb⟩ : Fin cfg0.N).val = (i 1).val / 512 := rfl
  refine ⟨⟨(i 1).val / 512, hb⟩, flush0_10 _, ?_⟩
  rw [mem_blk10]
  intro a
  match a with
  | ⟨0, _⟩ => show win0_10.index ⟨(i 1).val / 512, hb⟩ (0 : Fin 3) * 2 ≤ (i 0).val ∧ (i 0).val < win0_10.index ⟨(i 1).val / 512, hb⟩ (0 : Fin 3) * 2 + 2; omega
  | ⟨1, _⟩ => show win0_10.index ⟨(i 1).val / 512, hb⟩ (1 : Fin 3) * 512 ≤ (i 1).val ∧ (i 1).val < win0_10.index ⟨(i 1).val / 512, hb⟩ (1 : Fin 3) * 512 + 512; omega
  | ⟨2, _⟩ => show win0_10.index ⟨(i 1).val / 512, hb⟩ (2 : Fin 3) * 256 ≤ (i 2).val ∧ (i 2).val < win0_10.index ⟨(i 1).val / 512, hb⟩ (2 : Fin 3) * 256 + 256; omega

/-- Output 10's array after region 0. -/
theorem final10 (c : Dev nD) :
    (dat0 V c).arrAt 10 cfg0.N = stack2 (Cert.Spec.proj (V c main_arg0) (V c main_arg3)) (Cert.Spec.proj (V c main_arg0) (V c main_arg7)) :=
  (dat0 V c).arrAt_eq_of_cover 10 _ (fun t _ => flushed10 V c t) cover10

/-- What point `t` writes back through output window 11: rows 512·t … 512·t + 511 of both branches' products. -/
theorem flushed11 (c : Dev nD) (t : Fin cfg0.N) :
    (dat0 V c).flushed 11 t = ((cfg0.win 11).blk t).view.read (Elt Ideal)
      (stack2 (Cert.Spec.proj (V c main_arg0) (V c main_arg4)) (Cert.Spec.proj (V c main_arg0) (V c main_arg8))) := by
  show (cfg0.win 11).cut (grid0.coords t) ((dat0 V c).after 11 t) = _
  rw [after0_11]
  funext y
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
     = stack2 (Cert.Spec.proj (V c main_arg0) (V c main_arg4)) (Cert.Spec.proj (V c main_arg0) (V c main_arg8)) (((cfg0.win 11).blk t).view.emb y)
  unfold out0_11
  refine View.canon_apply_of_pieces (Val := Elt Ideal) (fun y => stack2 (Cert.Spec.proj (V c main_arg0) (V c main_arg4)) (Cert.Spec.proj (V c main_arg0) (V c main_arg8)) (((cfg0.win 11).blk t).view.emb y)) _ ?_ y (cover0_11 _ _ y)
  have hN : t.val < 8 := Nat.lt_of_lt_of_eq t.isLt N_0
  have e := idx0 t
  intro p hp
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay76_apply (iblk0 V c 0 t) (iblk0 V c 7 t) u r d).trans ?_
    have hidx : ((cfg0.win 11).blk t).view.emb (r0_4.emb (ix3 u r d)) = ix3 (1 : Fin 2) (⟨t.val * 512 + r.val, by omega⟩ : Fin 4096) d := by
      funext a; apply Fin.ext
      match a with
      | ⟨0, _⟩ => show win0_11.index t (0 : Fin 3) * 2 + 1 * (1 + 1 * u.val) = 1; have := u.isLt; omega
      | ⟨1, _⟩ => show win0_11.index t (1 : Fin 3) * 512 + 1 * (0 + 1 * r.val) = t.val * 512 + r.val; omega
      | ⟨2, _⟩ => show win0_11.index t (2 : Fin 3) * 256 + 1 * (0 + 1 * d.val) = d.val; omega
    show _ = stack2 _ _ (((cfg0.win 11).blk t).view.emb (r0_4.emb (ix3 u r d)))
    rw [hidx]
    refine Eq.trans ?_ (show Cert.Spec.proj (V c main_arg0) (V c main_arg8) (ix2 (⟨t.val * 512 + r.val, by omega⟩ : Fin 4096) d) = _ from rfl)
    unfold Cert.Spec.proj
    exact Finset.sum_congr rfl fun q _ => congrArg₂ (fun a b : EReal => a * b) (xblk V c t r q _ rfl) (wblk7 V c t q d)
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay5_apply (iblk0 V c 0 t) (iblk0 V c 3 t) u r d).trans ?_
    have hidx : ((cfg0.win 11).blk t).view.emb (r0_3.emb (ix3 u r d)) = ix3 (0 : Fin 2) (⟨t.val * 512 + r.val, by omega⟩ : Fin 4096) d := by
      funext a; apply Fin.ext
      match a with
      | ⟨0, _⟩ => show win0_11.index t (0 : Fin 3) * 2 + 1 * (0 + 1 * u.val) = 0; have := u.isLt; omega
      | ⟨1, _⟩ => show win0_11.index t (1 : Fin 3) * 512 + 1 * (0 + 1 * r.val) = t.val * 512 + r.val; omega
      | ⟨2, _⟩ => show win0_11.index t (2 : Fin 3) * 256 + 1 * (0 + 1 * d.val) = d.val; omega
    show _ = stack2 _ _ (((cfg0.win 11).blk t).view.emb (r0_3.emb (ix3 u r d)))
    rw [hidx]
    refine Eq.trans ?_ (show Cert.Spec.proj (V c main_arg0) (V c main_arg4) (ix2 (⟨t.val * 512 + r.val, by omega⟩ : Fin 4096) d) = _ from rfl)
    unfold Cert.Spec.proj
    exact Finset.sum_congr rfl fun q _ => congrArg₂ (fun a b : EReal => a * b) (xblk V c t r q _ rfl) (wblk3 V c t q d)
  exact absurd hp (List.not_mem_nil)

/-- An index of output 11's array is in point `t`'s block iff each coordinate is in the block's range on its axis. -/
theorem mem_blk11 (t : Fin cfg0.N) (i : S2x4096x256.Idx) :
    i ∈ ((cfg0.win 11).blk t).view.set ↔ ∀ a : Fin 3, win0_11.index t a * S2x512x256.size a ≤ (i a).val ∧ (i a).val < win0_11.index t a * S2x512x256.size a + S2x512x256.size a := by
  show i ∈ ((View.whole main_v0_1).slice (win0_11.rect t)).set ↔ _
  rw [View.set_slice_whole, Rect.mem_set_unit]
  exact Iff.rfl

/-- The eight row blocks cover output 11's array: row `r` is in the block of point `r / 512`. -/
theorem cover11 (i : S2x4096x256.Idx) : ∃ t : Fin cfg0.N, (cfg0.win 11).flush t = true ∧ i ∈ ((cfg0.win 11).blk t).view.set := by
  have h0 : (i 0).val < 2 := (i 0).isLt
  have h1 : (i 1).val < 4096 := (i 1).isLt
  have h2 : (i 2).val < 256 := (i 2).isLt
  have hb : (i 1).val / 512 < cfg0.N := by show _ < grid0.N; rw [N_0]; omega
  have e := idx0 ⟨(i 1).val / 512, hb⟩
  have ht : (⟨(i 1).val / 512, hb⟩ : Fin cfg0.N).val = (i 1).val / 512 := rfl
  refine ⟨⟨(i 1).val / 512, hb⟩, flush0_11 _, ?_⟩
  rw [mem_blk11]
  intro a
  match a with
  | ⟨0, _⟩ => show win0_11.index ⟨(i 1).val / 512, hb⟩ (0 : Fin 3) * 2 ≤ (i 0).val ∧ (i 0).val < win0_11.index ⟨(i 1).val / 512, hb⟩ (0 : Fin 3) * 2 + 2; omega
  | ⟨1, _⟩ => show win0_11.index ⟨(i 1).val / 512, hb⟩ (1 : Fin 3) * 512 ≤ (i 1).val ∧ (i 1).val < win0_11.index ⟨(i 1).val / 512, hb⟩ (1 : Fin 3) * 512 + 512; omega
  | ⟨2, _⟩ => show win0_11.index ⟨(i 1).val / 512, hb⟩ (2 : Fin 3) * 256 ≤ (i 2).val ∧ (i 2).val < win0_11.index ⟨(i 1).val / 512, hb⟩ (2 : Fin 3) * 256 + 256; omega

/-- Output 11's array after region 0. -/
theorem final11 (c : Dev nD) :
    (dat0 V c).arrAt 11 cfg0.N = stack2 (Cert.Spec.proj (V c main_arg0) (V c main_arg4)) (Cert.Spec.proj (V c main_arg0) (V c main_arg8)) :=
  (dat0 V c).arrAt_eq_of_cover 11 _ (fun t _ => flushed11 V c t) cover11

/-- What point `t` writes back through output window 12: rows 512·t … 512·t + 511 of both branches' products. -/
theorem flushed12 (c : Dev nD) (t : Fin cfg0.N) :
    (dat0 V c).flushed 12 t = ((cfg0.win 12).blk t).view.read (Elt Ideal)
      (stack2 (Cert.Spec.proj (V c main_arg0) (V c main_arg5)) (Cert.Spec.proj (V c main_arg0) (V c main_arg9))) := by
  show (cfg0.win 12).cut (grid0.coords t) ((dat0 V c).after 12 t) = _
  rw [after0_12]
  funext y
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
     = stack2 (Cert.Spec.proj (V c main_arg0) (V c main_arg5)) (Cert.Spec.proj (V c main_arg0) (V c main_arg9)) (((cfg0.win 12).blk t).view.emb y)
  unfold out0_12
  refine View.canon_apply_of_pieces (Val := Elt Ideal) (fun y => stack2 (Cert.Spec.proj (V c main_arg0) (V c main_arg5)) (Cert.Spec.proj (V c main_arg0) (V c main_arg9)) (((cfg0.win 12).blk t).view.emb y)) _ ?_ y (cover0_12 _ _ y)
  have hN : t.val < 8 := Nat.lt_of_lt_of_eq t.isLt N_0
  have e := idx0 t
  intro p hp
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay9_apply (iblk0 V c 0 t) (iblk0 V c 8 t) u r d).trans ?_
    have hidx : ((cfg0.win 12).blk t).view.emb (r0_4.emb (ix3 u r d)) = ix3 (1 : Fin 2) (⟨t.val * 512 + r.val, by omega⟩ : Fin 4096) d := by
      funext a; apply Fin.ext
      match a with
      | ⟨0, _⟩ => show win0_12.index t (0 : Fin 3) * 2 + 1 * (1 + 1 * u.val) = 1; have := u.isLt; omega
      | ⟨1, _⟩ => show win0_12.index t (1 : Fin 3) * 512 + 1 * (0 + 1 * r.val) = t.val * 512 + r.val; omega
      | ⟨2, _⟩ => show win0_12.index t (2 : Fin 3) * 256 + 1 * (0 + 1 * d.val) = d.val; omega
    show _ = stack2 _ _ (((cfg0.win 12).blk t).view.emb (r0_4.emb (ix3 u r d)))
    rw [hidx]
    refine Eq.trans ?_ (show Cert.Spec.proj (V c main_arg0) (V c main_arg9) (ix2 (⟨t.val * 512 + r.val, by omega⟩ : Fin 4096) d) = _ from rfl)
    unfold Cert.Spec.proj
    exact Finset.sum_congr rfl fun q _ => congrArg₂ (fun a b : EReal => a * b) (xblk V c t r q _ rfl) (wblk8 V c t q d)
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x512) hz2, View.ld_unit_zero (S := S512x256) hz2]
    refine (pay8_apply (iblk0 V c 0 t) (iblk0 V c 4 t) u r d).trans ?_
    have hidx : ((cfg0.win 12).blk t).view.emb (r0_3.emb (ix3 u r d)) = ix3 (0 : Fin 2) (⟨t.val * 512 + r.val, by omega⟩ : Fin 4096) d := by
      funext a; apply Fin.ext
      match a with
      | ⟨0, _⟩ => show win0_12.index t (0 : Fin 3) * 2 + 1 * (0 + 1 * u.val) = 0; have := u.isLt; omega
      | ⟨1, _⟩ => show win0_12.index t (1 : Fin 3) * 512 + 1 * (0 + 1 * r.val) = t.val * 512 + r.val; omega
      | ⟨2, _⟩ => show win0_12.index t (2 : Fin 3) * 256 + 1 * (0 + 1 * d.val) = d.val; omega
    show _ = stack2 _ _ (((cfg0.win 12).blk t).view.emb (r0_3.emb (ix3 u r d)))
    rw [hidx]
    refine Eq.trans ?_ (show Cert.Spec.proj (V c main_arg0) (V c main_arg5) (ix2 (⟨t.val * 512 + r.val, by omega⟩ : Fin 4096) d) = _ from rfl)
    unfold Cert.Spec.proj
    exact Finset.sum_congr rfl fun q _ => congrArg₂ (fun a b : EReal => a * b) (xblk V c t r q _ rfl) (wblk4 V c t q d)
  exact absurd hp (List.not_mem_nil)

/-- An index of output 12's array is in point `t`'s block iff each coordinate is in the block's range on its axis. -/
theorem mem_blk12 (t : Fin cfg0.N) (i : S2x4096x256.Idx) :
    i ∈ ((cfg0.win 12).blk t).view.set ↔ ∀ a : Fin 3, win0_12.index t a * S2x512x256.size a ≤ (i a).val ∧ (i a).val < win0_12.index t a * S2x512x256.size a + S2x512x256.size a := by
  show i ∈ ((View.whole main_v0_2).slice (win0_12.rect t)).set ↔ _
  rw [View.set_slice_whole, Rect.mem_set_unit]
  exact Iff.rfl

/-- The eight row blocks cover output 12's array: row `r` is in the block of point `r / 512`. -/
theorem cover12 (i : S2x4096x256.Idx) : ∃ t : Fin cfg0.N, (cfg0.win 12).flush t = true ∧ i ∈ ((cfg0.win 12).blk t).view.set := by
  have h0 : (i 0).val < 2 := (i 0).isLt
  have h1 : (i 1).val < 4096 := (i 1).isLt
  have h2 : (i 2).val < 256 := (i 2).isLt
  have hb : (i 1).val / 512 < cfg0.N := by show _ < grid0.N; rw [N_0]; omega
  have e := idx0 ⟨(i 1).val / 512, hb⟩
  have ht : (⟨(i 1).val / 512, hb⟩ : Fin cfg0.N).val = (i 1).val / 512 := rfl
  refine ⟨⟨(i 1).val / 512, hb⟩, flush0_12 _, ?_⟩
  rw [mem_blk12]
  intro a
  match a with
  | ⟨0, _⟩ => show win0_12.index ⟨(i 1).val / 512, hb⟩ (0 : Fin 3) * 2 ≤ (i 0).val ∧ (i 0).val < win0_12.index ⟨(i 1).val / 512, hb⟩ (0 : Fin 3) * 2 + 2; omega
  | ⟨1, _⟩ => show win0_12.index ⟨(i 1).val / 512, hb⟩ (1 : Fin 3) * 512 ≤ (i 1).val ∧ (i 1).val < win0_12.index ⟨(i 1).val / 512, hb⟩ (1 : Fin 3) * 512 + 512; omega
  | ⟨2, _⟩ => show win0_12.index ⟨(i 1).val / 512, hb⟩ (2 : Fin 3) * 256 ≤ (i 2).val ∧ (i 2).val < win0_12.index ⟨(i 1).val / 512, hb⟩ (2 : Fin 3) * 256 + 256; omega

/-- Output 12's array after region 0. -/
theorem final12 (c : Dev nD) :
    (dat0 V c).arrAt 12 cfg0.N = stack2 (Cert.Spec.proj (V c main_arg0) (V c main_arg5)) (Cert.Spec.proj (V c main_arg0) (V c main_arg9)) :=
  (dat0 V c).arrAt_eq_of_cover 12 _ (fun t _ => flushed12 V c t) cover12

/-- What point `t` writes back through output window 13: rows 512·t … 512·t + 511 of both branches' products. -/
theorem flushed13 (c : Dev nD) (t : Fin cfg0.N) :
    (dat0 V c).flushed 13 t = ((cfg0.win 13).blk t).view.read (Elt Ideal)
      (stack2 (Cert.Spec.proj (V c main_arg1) (V c main_arg2)) (Cert.Spec.proj (V c main_arg1) (V c main_arg6))) := by
  show (cfg0.win 13).cut (grid0.coords t) ((dat0 V c).after 13 t) = _
  rw [after0_13]
  funext y
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
     = stack2 (Cert.Spec.proj (V c main_arg1) (V c main_arg2)) (Cert.Spec.proj (V c main_arg1) (V c main_arg6)) (((cfg0.win 13).blk t).view.emb y)
  unfold out0_13
  refine View.canon_apply_of_pieces (Val := Elt Ideal) (fun y => stack2 (Cert.Spec.proj (V c main_arg1) (V c main_arg2)) (Cert.Spec.proj (V c main_arg1) (V c main_arg6)) (((cfg0.win 13).blk t).view.emb y)) _ ?_ y (cover0_13 _ _ y)
  have hN : t.val < 8 := Nat.lt_of_lt_of_eq t.isLt N_0
  have e := idx0 t
  intro p hp
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x22) hz2, View.ld_unit_zero (S := S22x256) hz2]
    refine (pay11_apply (iblk0 V c 1 t) (iblk0 V c 9 t) u r d).trans ?_
    have hidx : ((cfg0.win 13).blk t).view.emb (r0_4.emb (ix3 u r d)) = ix3 (1 : Fin 2) (⟨t.val * 512 + r.val, by omega⟩ : Fin 4096) d := by
      funext a; apply Fin.ext
      match a with
      | ⟨0, _⟩ => show win0_13.index t (0 : Fin 3) * 2 + 1 * (1 + 1 * u.val) = 1; have := u.isLt; omega
      | ⟨1, _⟩ => show win0_13.index t (1 : Fin 3) * 512 + 1 * (0 + 1 * r.val) = t.val * 512 + r.val; omega
      | ⟨2, _⟩ => show win0_13.index t (2 : Fin 3) * 256 + 1 * (0 + 1 * d.val) = d.val; omega
    show _ = stack2 _ _ (((cfg0.win 13).blk t).view.emb (r0_4.emb (ix3 u r d)))
    rw [hidx]
    refine Eq.trans ?_ (show Cert.Spec.proj (V c main_arg1) (V c main_arg6) (ix2 (⟨t.val * 512 + r.val, by omega⟩ : Fin 4096) d) = _ from rfl)
    unfold Cert.Spec.proj
    exact Finset.sum_congr rfl fun q _ => congrArg₂ (fun a b : EReal => a * b) (boxblk V c t r q _ rfl) (wblk9 V c t q d)
  rcases List.mem_cons.mp hp with rfl | hp
  · intro x
    obtain ⟨u, r, d, rfl⟩ : ∃ (u : Fin 1) (r : Fin 512) (d : Fin 256), x = ix3 u r d := ⟨x 0, x 1, x 2, eq_ix3 x⟩
    simp only [View.ld_unit_zero (S := S512x22) hz2, View.ld_unit_zero (S := S22x256) hz2]
    refine (pay10_apply (iblk0 V c 1 t) (iblk0 V c 5 t) u r d).trans ?_
    have hidx : ((cfg0.win 13).blk t).view.emb (r0_3.emb (ix3 u r d)) = ix3 (0 : Fin 2) (⟨t.val * 512 + r.val, by omega⟩ : Fin 4096) d := by
      funext a; apply Fin.ext
      match a with
      | ⟨0, _⟩ => show win0_13.index t (0 : Fin 3) * 2 + 1 * (0 + 1 * u.val) = 0; have := u.isLt; omega
      | ⟨1, _⟩ => show win0_13.index t (1 : Fin 3) * 512 + 1 * (0 + 1 * r.val) = t.val * 512 + r.val; omega
      | ⟨2, _⟩ => show win0_13.index t (2 : Fin 3) * 256 + 1 * (0 + 1 * d.val) = d.val; omega
    show _ = stack2 _ _ (((cfg0.win 13).blk t).view.emb (r0_3.emb (ix3 u r d)))
    rw [hidx]
    refine Eq.trans ?_ (show Cert.Spec.proj (V c main_arg1) (V c main_arg2) (ix2 (⟨t.val * 512 + r.val, by omega⟩ : Fin 4096) d) = _ from rfl)
    unfold Cert.Spec.proj
    exact Finset.sum_congr rfl fun q _ => congrArg₂ (fun a b : EReal => a * b) (boxblk V c t r q _ rfl) (wblk5 V c t q d)
  exact absurd hp (List.not_mem_nil)

/-- An index of output 13's array is in point `t`'s block iff each coordinate is in the block's range on its axis. -/
theorem mem_blk13 (t : Fin cfg0.N) (i : S2x4096x256.Idx) :
    i ∈ ((cfg0.win 13).blk t).view.set ↔ ∀ a : Fin 3, win0_13.index t a * S2x512x256.size a ≤ (i a).val ∧ (i a).val < win0_13.index t a * S2x512x256.size a + S2x512x256.size a := by
  show i ∈ ((View.whole main_v0_3).slice (win0_13.rect t)).set ↔ _
  rw [View.set_slice_whole, Rect.mem_set_unit]
  exact Iff.rfl

/-- The eight row blocks cover output 13's array: row `r` is in the block of point `r / 512`. -/
theorem cover13 (i : S2x4096x256.Idx) : ∃ t : Fin cfg0.N, (cfg0.win 13).flush t = true ∧ i ∈ ((cfg0.win 13).blk t).view.set := by
  have h0 : (i 0).val < 2 := (i 0).isLt
  have h1 : (i 1).val < 4096 := (i 1).isLt
  have h2 : (i 2).val < 256 := (i 2).isLt
  have hb : (i 1).val / 512 < cfg0.N := by show _ < grid0.N; rw [N_0]; omega
  have e := idx0 ⟨(i 1).val / 512, hb⟩
  have ht : (⟨(i 1).val / 512, hb⟩ : Fin cfg0.N).val = (i 1).val / 512 := rfl
  refine ⟨⟨(i 1).val / 512, hb⟩, flush0_13 _, ?_⟩
  rw [mem_blk13]
  intro a
  match a with
  | ⟨0, _⟩ => show win0_13.index ⟨(i 1).val / 512, hb⟩ (0 : Fin 3) * 2 ≤ (i 0).val ∧ (i 0).val < win0_13.index ⟨(i 1).val / 512, hb⟩ (0 : Fin 3) * 2 + 2; omega
  | ⟨1, _⟩ => show win0_13.index ⟨(i 1).val / 512, hb⟩ (1 : Fin 3) * 512 ≤ (i 1).val ∧ (i 1).val < win0_13.index ⟨(i 1).val / 512, hb⟩ (1 : Fin 3) * 512 + 512; omega
  | ⟨2, _⟩ => show win0_13.index ⟨(i 1).val / 512, hb⟩ (2 : Fin 3) * 256 ≤ (i 2).val ∧ (i 2).val < win0_13.index ⟨(i 1).val / 512, hb⟩ (2 : Fin 3) * 256 + 256; omega

/-- Output 13's array after region 0. -/
theorem final13 (c : Dev nD) :
    (dat0 V c).arrAt 13 cfg0.N = stack2 (Cert.Spec.proj (V c main_arg1) (V c main_arg2)) (Cert.Spec.proj (V c main_arg1) (V c main_arg6)) :=
  (dat0 V c).arrAt_eq_of_cover 13 _ (fun t _ => flushed13 V c t) cover13

end Cert.KernelIdeal.Hand

end
-- ==== Proof.KRegion1a.lean ====
/-
  Region 1, the layout side: from the stacked keys K, queries Q, gates G and values V that it finds (each 2 × 4096 × 256),
  it leaves the numerator array, entry (b, r, j) = Σ_s S_b[r,s] · V[b,s,j], and the row sums, entry (b, r, 0) = Σ_s S_b[r,s],
  where S_b[r,s] = max ((Σ_d G[b,r,d]·G[b,s,d]) · 1/16) 0 · exp ((Σ_d K[b,r,d]·Q[b,s,d]) · 1/16).

  Point t = 16·b + i handles rows 256·i … 256·i + 255 of branch b: it reads those rows of K, the whole slabs of Q, G
  and V of branch b, and takes its gate rows out of the G slab at row offset 256·i. The 2 × 16 blocks tile each output.
-/
import proofs.«126589_j77129022701585_2_alg».proof.Proof.Gen.KernelIdeal.Frame
import proofs.«126589_j77129022701585_2_alg».proof.Proof.Spec
import Idealize.ShloMosaic.Lib.ValueLayout

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The score of row `r` against row `s` in branch `b`, from the stacked arrays. -/
def scoreAt (K Q G : S2x4096x256.Idx → EReal) (b : Fin 2) (r s : Fin 4096) : EReal :=
  max ((∑ d : Fin 256, G (ix3 b r d) * G (ix3 b s d)) * Cert.Spec.sixteenth) 0
    * Ideal.exp ((∑ d : Fin 256, K (ix3 b r d) * Q (ix3 b s d)) * Cert.Spec.sixteenth)

/-- The numerator array: the scores of a row against every row, weighted by the value rows. -/
def numFull (K Q G W : S2x4096x256.Idx → EReal) : S2x4096x256.Idx → EReal :=
  fun i => ∑ s : Fin 4096, scoreAt K Q G (i 0) (i 1) s * W (ix3 (i 0) s (i 2))

/-- The row sums of the scores, kept as a column. -/
def rowsumFull (K Q G : S2x4096x256.Idx → EReal) : S2x4096x1.Idx → EReal :=
  fun i => ∑ s : Fin 4096, scoreAt K Q G (i 0) (i 1) s

/-- The printed index maps over the 32 points: point t is branch t / 16, row tile t % 16. -/
theorem idx1 : ∀ t : Fin cfg1.N,
    win1_0.index t (0 : Fin 3) = t.val / 16
    ∧ win1_0.index t (1 : Fin 3) = t.val % 16
    ∧ win1_0.index t (2 : Fin 3) = 0
    ∧ win1_4.index t (0 : Fin 3) = t.val / 16
    ∧ win1_4.index t (1 : Fin 3) = t.val % 16
    ∧ win1_4.index t (2 : Fin 3) = 0
    ∧ win1_5.index t (0 : Fin 3) = t.val / 16
    ∧ win1_5.index t (1 : Fin 3) = t.val % 16
    ∧ win1_5.index t (2 : Fin 3) = 0
    ∧ win1_1.index t (0 : Fin 3) = t.val / 16
    ∧ win1_1.index t (1 : Fin 3) = 0
    ∧ win1_1.index t (2 : Fin 3) = 0
    ∧ win1_2.index t (0 : Fin 3) = t.val / 16
    ∧ win1_2.index t (1 : Fin 3) = 0
    ∧ win1_2.index t (2 : Fin 3) = 0
    ∧ win1_3.index t (0 : Fin 3) = t.val / 16
    ∧ win1_3.index t (1 : Fin 3) = 0
    ∧ win1_3.index t (2 : Fin 3) = 0
    ∧ (grid1.coords t (0 : Fin 2)).val = t.val / 16
    ∧ (grid1.coords t (1 : Fin 2)).val = t.val % 16 :=
  (by decide +kernel : ∀ t : Fin grid1.N, _)

/-- The key block at point `t` is rows 256·(t % 16) … of branch t / 16 of the stacked keys. -/
theorem kblk (c : Dev nD) (t : Fin cfg1.N) (a : Fin 256) (d : Fin 256) (B : Fin 2) (R : Fin 4096)
    (hB : B.val = t.val / 16) (hR : R.val = t.val % 16 * 256 + a.val) :
    (iblk1 V c 0 t : Vec Ideal S1x256x256 .bf16) (ix3 (0 : Fin 1) a d) = (V c main_v0_0 : S2x4096x256.Idx → EReal) (ix3 B R d) := by
  have e := idx1 t
  unfold iblk1
  rw [View.read_apply]
  show (V c main_v0_0 : S2x4096x256.Idx → EReal) _ = _
  refine congrArg _ (funext fun x => Fin.ext ?_)
  match x with
  | ⟨0, _⟩ => show win1_0.index t (0 : Fin 3) * 1 + 1 * 0 = B.val; omega
  | ⟨1, _⟩ => show win1_0.index t (1 : Fin 3) * 256 + 1 * a.val = R.val; omega
  | ⟨2, _⟩ => show win1_0.index t (2 : Fin 3) * 256 + 1 * d.val = d.val; omega

/-- Input window 1 at point `t` is the whole 4096 × 256 slab of the point's branch. -/
theorem slab1 (c : Dev nD) (t : Fin cfg1.N) (s : Fin 4096) (d : Fin 256) (B : Fin 2) (hB : B.val = t.val / 16) :
    (iblk1 V c 1 t : Vec Ideal S1x4096x256 .bf16) (ix3 (0 : Fin 1) s d) = (V c main_v0_1 : S2x4096x256.Idx → EReal) (ix3 B s d) := by
  have e := idx1 t
  unfold iblk1
  rw [View.read_apply]
  show (V c main_v0_1 : S2x4096x256.Idx → EReal) _ = _
  refine congrArg _ (funext fun a => Fin.ext ?_)
  match a with
  | ⟨0, _⟩ => show win1_1.index t (0 : Fin 3) * 1 + 1 * 0 = B.val; omega
  | ⟨1, _⟩ => show win1_1.index t (1 : Fin 3) * 4096 + 1 * s.val = s.val; omega
  | ⟨2, _⟩ => show win1_1.index t (2 : Fin 3) * 256 + 1 * d.val = d.val; omega

/-- Input window 2 at point `t` is the whole 4096 × 256 slab of the point's branch. -/
theorem slab2 (c : Dev nD) (t : Fin cfg1.N) (s : Fin 4096) (d : Fin 256) (B : Fin 2) (hB : B.val = t.val / 16) :
    (iblk1 V c 2 t : Vec Ideal S1x4096x256 .bf16) (ix3 (0 : Fin 1) s d) = (V c main_v0_3 : S2x4096x256.Idx → EReal) (ix3 B s d) := by
  have e := idx1 t
  unfold iblk1
  rw [View.read_apply]
  show (V c main_v0_3 : S2x4096x256.Idx → EReal) _ = _
  refine congrArg _ (funext fun a => Fin.ext ?_)
  match a with
  | ⟨0, _⟩ => show win1_2.index t (0 : Fin 3) * 1 + 1 * 0 = B.val; omega
  | ⟨1, _⟩ => show win1_2.index t (1 : Fin 3) * 4096 + 1 * s.val = s.val; omega
  | ⟨2, _⟩ => show win1_2.index t (2 : Fin 3) * 256 + 1 * d.val = d.val; omega

/-- Input window 3 at point `t` is the whole 4096 × 256 slab of the point's branch. -/
theorem slab3 (c : Dev nD) (t : Fin cfg1.N) (s : Fin 4096) (d : Fin 256) (B : Fin 2) (hB : B.val = t.val / 16) :
    (iblk1 V c 3 t : Vec Ideal S1x4096x256 .bf16) (ix3 (0 : Fin 1) s d) = (V c main_v0_2 : S2x4096x256.Idx → EReal) (ix3 B s d) := by
  have e := idx1 t
  unfold iblk1
  rw [View.read_apply]
  show (V c main_v0_2 : S2x4096x256.Idx → EReal) _ = _
  refine congrArg _ (funext fun a => Fin.ext ?_)
  match a with
  | ⟨0, _⟩ => show win1_3.index t (0 : Fin 3) * 1 + 1 * 0 = B.val; omega
  | ⟨1, _⟩ => show win1_3.index t (1 : Fin 3) * 4096 + 1 * s.val = s.val; omega
  | ⟨2, _⟩ => show win1_3.index t (2 : Fin 3) * 256 + 1 * d.val = d.val; omega

/-- An index of output 4's array is in point `t`'s block iff each coordinate is in the block's range on its axis. -/
theorem mem_blk1_4 (t : Fin cfg1.N) (i : S2x4096x256.Idx) :
    i ∈ ((cfg1.win 4).blk t).view.set ↔ ∀ a : Fin 3, win1_4.index t a * S1x256x256.size a ≤ (i a).val ∧ (i a).val < win1_4.index t a * S1x256x256.size a + S1x256x256.size a := by
  show i ∈ ((View.whole main_v1_0).slice (win1_4.rect t)).set ↔ _
  rw [View.set_slice_whole, Rect.mem_set_unit]
  exact Iff.rfl

/-- The 2 × 16 blocks cover output 4's array: entry (b, r, ·) is in the block of point 16·b + r / 256. -/
theorem cover1_4 (i : S2x4096x256.Idx) : ∃ t : Fin cfg1.N, (cfg1.win 4).flush t = true ∧ i ∈ ((cfg1.win 4).blk t).view.set := by
  have h0 : (i 0).val < 2 := (i 0).isLt
  have h1 : (i 1).val < 4096 := (i 1).isLt
  have h2 : (i 2).val < 256 := (i 2).isLt
  have hb : (i 0).val * 16 + (i 1).val / 256 < cfg1.N := by show _ < grid1.N; rw [N_1]; omega
  have e := idx1 ⟨(i 0).val * 16 + (i 1).val / 256, hb⟩
  have ht : (⟨(i 0).val * 16 + (i 1).val / 256, hb⟩ : Fin cfg1.N).val = (i 0).val * 16 + (i 1).val / 256 := rfl
  refine ⟨⟨(i 0).val * 16 + (i 1).val / 256, hb⟩, flush1_4 _, ?_⟩
  rw [mem_blk1_4]
  intro a
  match a with
  | ⟨0, _⟩ => show win1_4.index ⟨(i 0).val * 16 + (i 1).val / 256, hb⟩ (0 : Fin 3) * 1 ≤ (i 0).val ∧ (i 0).val < win1_4.index ⟨(i 0).val * 16 + (i 1).val / 256, hb⟩ (0 : Fin 3) * 1 + 1; omega
  | ⟨1, _⟩ => show win1_4.index ⟨(i 0).val * 16 + (i 1).val / 256, hb⟩ (1 : Fin 3) * 256 ≤ (i 1).val ∧ (i 1).val < win1_4.index ⟨(i 0).val * 16 + (i 1).val / 256, hb⟩ (1 : Fin 3) * 256 + 256; omega
  | ⟨2, _⟩ => show win1_4.index ⟨(i 0).val * 16 + (i 1).val / 256, hb⟩ (2 : Fin 3) * 256 ≤ (i 2).val ∧ (i 2).val < win1_4.index ⟨(i 0).val * 16 + (i 1).val / 256, hb⟩ (2 : Fin 3) * 256 + 256; omega

/-- An index of output 5's array is in point `t`'s block iff each coordinate is in the block's range on its axis. -/
theorem mem_blk1_5 (t : Fin cfg1.N) (i : S2x4096x1.Idx) :
    i ∈ ((cfg1.win 5).blk t).view.set ↔ ∀ a : Fin 3, win1_5.index t a * S1x256x1.size a ≤ (i a).val ∧ (i a).val < win1_5.index t a * S1x256x1.size a + S1x256x1.size a := by
  show i ∈ ((View.whole main_v1_1).slice (win1_5.rect t)).set ↔ _
  rw [View.set_slice_whole, Rect.mem_set_unit]
  exact Iff.rfl

/-- The 2 × 16 blocks cover output 5's array: entry (b, r, ·) is in the block of point 16·b + r / 256. -/
theorem cover1_5 (i : S2x4096x1.Idx) : ∃ t : Fin cfg1.N, (cfg1.win 5).flush t = true ∧ i ∈ ((cfg1.win 5).blk t).view.set := by
  have h0 : (i 0).val < 2 := (i 0).isLt
  have h1 : (i 1).val < 4096 := (i 1).isLt
  have h2 : (i 2).val < 1 := (i 2).isLt
  have hb : (i 0).val * 16 + (i 1).val / 256 < cfg1.N := by show _ < grid1.N; rw [N_1]; omega
  have e := idx1 ⟨(i 0).val * 16 + (i 1).val / 256, hb⟩
  have ht : (⟨(i 0).val * 16 + (i 1).val / 256, hb⟩ : Fin cfg1.N).val = (i 0).val * 16 + (i 1).val / 256 := rfl
  refine ⟨⟨(i 0).val * 16 + (i 1).val / 256, hb⟩, flush1_5 _, ?_⟩
  rw [mem_blk1_5]
  intro a
  match a with
  | ⟨0, _⟩ => show win1_5.index ⟨(i 0).val * 16 + (i 1).val / 256, hb⟩ (0 : Fin 3) * 1 ≤ (i 0).val ∧ (i 0).val < win1_5.index ⟨(i 0).val * 16 + (i 1).val / 256, hb⟩ (0 : Fin 3) * 1 + 1; omega
  | ⟨1, _⟩ => show win1_5.index ⟨(i 0).val * 16 + (i 1).val / 256, hb⟩ (1 : Fin 3) * 256 ≤ (i 1).val ∧ (i 1).val < win1_5.index ⟨(i 0).val * 16 + (i 1).val / 256, hb⟩ (1 : Fin 3) * 256 + 256; omega
  | ⟨2, _⟩ => show win1_5.index ⟨(i 0).val * 16 + (i 1).val / 256, hb⟩ (2 : Fin 3) * 1 ≤ (i 2).val ∧ (i 2).val < win1_5.index ⟨(i 0).val * 16 + (i 1).val / 256, hb⟩ (2 : Fin 3) * 1 + 1; omega

end Cert.KernelIdeal.Hand

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KBody1.lean ====
/-
  Region 1's arithmetic at the extended reals, read at coordinates.

  At a grid point the body holds a 256-row block of keys and of gate rows, and the whole 4096-row slabs of Q, G and V of
  the branch. Its score block is S[a,s] = max ((Σ_d g_i[a,d]·G[s,d]) · 1/16) 0 · exp ((Σ_d k[a,d]·Q[s,d]) · 1/16): both
  products contract the 256 hidden coordinates of a block row with those of a slab row, into a zero accumulator, and the
  literal 0.0625 is the real number 1/16. The row-sum piece at (·, a, ·) is Σ_s S[a,s] (a sum over the columns from the
  accumulator 0, kept as a column and re-laid with a leading unit axis); the numerator piece at (·, a, j) is
  Σ_s S[a,s] · V[s,j]. A change of float format is the identity at the extended reals.
-/
import proofs.«126589_j77129022701585_2_alg».proof.Proof.Gen.KernelIdeal.Skeleton
import proofs.«126589_j77129022701585_2_alg».proof.Proof.Spec
import proofs.«126589_j77129022701585_2_alg».proof.Proof.LibKeepdims
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- The word `0x3D800000` denotes the real number 1/16. -/
theorem w16 : Ideal.ofBits .f32 0x3D800000#32 = Cert.Spec.sixteenth := by
  unfold Cert.Spec.sixteenth
  simp [Ideal.ofBits, Ideal.ieee, -EReal.coe_mul]; norm_num

/-! ## The two contractions of region 1, read at an index -/

theorem lhsC_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem rhsC_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl

/-- Rows against rows: a 256 × 256 block times the transpose of a 4096 × 256 slab into the zero accumulator; entry
    (a, s) is Σ_d l[a,d] · r[s,d]. -/
theorem mmC {φ₁ φ₂ : FTy} (l : FVec Ideal S256x256 φ₁) (r : FVec Ideal S4096x256 φ₂) (a : Fin 256) (s : Fin 4096) :
    matmul dot_S256x256_S4096x256_S256x4096_1_1_0_0_n_n none l r (constant S256x4096 .f32 0x00000000#32) (ix2 a s)
      = ∑ d : Fin 256, l (ix2 a d) * r (ix2 s d) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 a s) ((contrEquiv1 dot_S256x256_S4096x256_S256x4096_1_1_0_0_n_n 256 rfl rfl).symm k) = ix2 a k := funext fun x => Fin.ext (by
    match x with
    | ⟨0, _⟩ => exact lhsC_0 _ _
    | ⟨1, _⟩ => exact (dot_S256x256_S4096x256_S256x4096_1_1_0_0_n_n.lhsIdx_val_of_single rfl _ _).trans hk)
  have er : dot_S256x256_S4096x256_S256x4096_1_1_0_0_n_n.rhsIdx (ix2 a s) ((contrEquiv1 dot_S256x256_S4096x256_S256x4096_1_1_0_0_n_n 256 rfl rfl).symm k) = ix2 s k := funext fun x => Fin.ext (by
    match x with
    | ⟨0, _⟩ => exact rhsC_0 _ _
    | ⟨1, _⟩ => exact (dot_S256x256_S4096x256_S256x4096_1_1_0_0_n_n.rhsIdx_val_of_single rfl _ _).trans hk)
  rw [el, er]

theorem lhsD_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem rhsD_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- A 256 × 4096 block times a 4096 × 256 slab into the zero accumulator: entry (a, j) is Σ_s l[a,s] · r[s,j]. -/
theorem mmD {φ₁ φ₂ : FTy} (l : FVec Ideal S256x4096 φ₁) (r : FVec Ideal S4096x256 φ₂) (a : Fin 256) (j : Fin 256) :
    matmul dot_S256x4096_S4096x256_S256x256_1_0_0_1_n_n none l r (constant S256x256 .f32 0x00000000#32) (ix2 a j)
      = ∑ s : Fin 4096, l (ix2 a s) * r (ix2 s j) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 a j) ((contrEquiv1 dot_S256x4096_S4096x256_S256x256_1_0_0_1_n_n 4096 rfl rfl).symm k) = ix2 a k := funext fun x => Fin.ext (by
    match x with
    | ⟨0, _⟩ => exact lhsD_0 _ _
    | ⟨1, _⟩ => exact (dot_S256x4096_S4096x256_S256x256_1_0_0_1_n_n.lhsIdx_val_of_single rfl _ _).trans hk)
  have er : dot_S256x4096_S4096x256_S256x256_1_0_0_1_n_n.rhsIdx (ix2 a j) ((contrEquiv1 dot_S256x4096_S4096x256_S256x256_1_0_0_1_n_n 4096 rfl rfl).symm k) = ix2 k j := funext fun x => Fin.ext (by
    match x with
    | ⟨0, _⟩ => exact (dot_S256x4096_S4096x256_S256x256_1_0_0_1_n_n.rhsIdx_val_of_single rfl _ _).trans hk
    | ⟨1, _⟩ => exact rhsD_1 _ _)
  rw [el, er]

/-! ## The score block, its row sums and the numerator block, read at coordinates

A change of float format is the identity at the extended reals. -/

/-- Entry (a, s) of the score block: the gate of gate-row `a` against G-row `s`, times the exponential of key-row
    `a` against Q-row `s`, both inner products over the 256 hidden coordinates scaled by 1/16. -/
theorem scoreBlk_apply (k : Vec Ideal S1x256x256 .bf16) (q g : Vec Ideal S1x4096x256 .bf16) (gi : Vec Ideal S1x256x256 .bf16)
    (a : Fin 256) (s : Fin 4096) :
    k1_pay2 k q g gi (ix2 a s)
      = max ((∑ d : Fin 256, gi (ix3 (0 : Fin 1) a d) * g (ix3 (0 : Fin 1) s d)) * Cert.Spec.sixteenth) 0
        * Ideal.exp ((∑ d : Fin 256, k (ix3 (0 : Fin 1) a d) * q (ix3 (0 : Fin 1) s d)) * Cert.Spec.sixteenth) := by
  unfold k1_pay2
  show max ((matmul (F := Ideal) dot_S256x256_S4096x256_S256x4096_1_1_0_0_n_n none (shapeCast S256x256 gi shapeCasts_S1x256x256_S256x256)
          (shapeCast S4096x256 g shapeCasts_S1x4096x256_S4096x256) (constant (F := Ideal) S256x4096 .f32 0x00000000#32) (ix2 a s) : EReal)
        * Ideal.ofBits .f32 0x3D800000#32) (Ideal.ofBits .f32 0x00000000#32)
      * Ideal.exp ((matmul (F := Ideal) dot_S256x256_S4096x256_S256x4096_1_1_0_0_n_n none (shapeCast S256x256 k shapeCasts_S1x256x256_S256x256)
          (shapeCast S4096x256 q shapeCasts_S1x4096x256_S4096x256) (constant (F := Ideal) S256x4096 .f32 0x00000000#32) (ix2 a s) : EReal)
        * Ideal.ofBits .f32 0x3D800000#32) = _
  rw [mmC, mmC, w16, Ideal.ofBits_zero_f32]
  simp only [shapeCast_1ab_ab_apply]

/-- The reduced index `a` with column `s` put back is (a, s). -/
theorem lift_scoreRow (a : Fin 256) (s : Fin (S256x4096.size 1)) :
    reduces_S256x4096_S256.lift (ix1 a) s = ix2 a (⟨s.val, s.isLt⟩ : Fin 4096) := by
  funext c; apply Fin.ext
  match c with
  | ⟨0, _⟩ => rfl
  | ⟨1, _⟩ => rfl

/-- Entry (·, a, ·) of the row-sum piece: the sum of row `a` of the score block over its 4096 columns. -/
theorem rowsumBlk_apply (k : Vec Ideal S1x256x256 .bf16) (q g : Vec Ideal S1x4096x256 .bf16) (gi : Vec Ideal S1x256x256 .bf16)
    (u : Fin 1) (a : Fin 256) (z : Fin 1) :
    k1_pay1 (k1_pay3 k q g gi) (ix3 u a z) = ∑ s : Fin 4096, k1_pay2 k q g gi (ix2 a s) := by
  unfold k1_pay1 k1_pay3
  refine (shapeCast_ab_1ab_apply _ _ u a z).trans ?_
  refine (Cert.Keepdims.shapeCast_a_a1_apply _ _ a z).trans ?_
  refine (Ideal.multiReduction_add_single (k1_pay2 k q g gi) 0x00000000#32 reduces_S256x4096_S256 (.inl rfl) rfl (ix1 a)).trans ?_
  show ∑ s : Fin 4096, k1_pay2 k q g gi (reduces_S256x4096_S256.lift (ix1 a) s) = _
  refine Finset.sum_congr rfl fun s _ => ?_
  exact congrArg (k1_pay2 k q g gi) (lift_scoreRow a s)

/-- Entry (·, a, j) of the numerator piece: row `a` of the score block against column `j` of the value slab. -/
theorem numBlk_apply (k : Vec Ideal S1x256x256 .bf16) (q g v : Vec Ideal S1x4096x256 .bf16) (gi : Vec Ideal S1x256x256 .bf16)
    (u : Fin 1) (a : Fin 256) (j : Fin 256) :
    k1_pay4 k q g v gi (ix3 u a j) = ∑ s : Fin 4096, k1_pay2 k q g gi (ix2 a s) * v (ix3 (0 : Fin 1) s j) := by
  unfold k1_pay4
  refine (shapeCast_ab_1ab_apply _ _ u a j).trans ?_
  refine (mmD _ _ a j).trans ?_
  refine Finset.sum_congr rfl fun s _ => ?_
  exact congrArg (fun e => k1_pay2 k q g gi (ix2 a s) * e) (shapeCast_1ab_ab_apply v shapeCasts_S1x4096x256_S4096x256 s j)

end Cert.KernelIdeal.Hand

end
-- ==== Proof.KRun1.lean ====
/-
  What one grid point of region 1 leaves in its two output blocks, as the arithmetic of the blocks it loaded.

  The body stores each output block once, through the whole-block rectangle, so the block after the point is the stored
  value: the numerator of the key block, the Q, G and V slabs and the gate rows; and the row sums of the same. The gate
  rows are the 256 rows of the G slab from row 256 · i₁ on, where i₁ < 16 is the point's second coordinate: the offset is
  computed in 32-bit words, and 256 · i₁ < 4096 does not wrap.
-/
import proofs.«126589_j77129022701585_2_alg».proof.Proof.Gen.KernelIdeal.Frame
import proofs.«126589_j77129022701585_2_alg».proof.Proof.KBody1
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen Idealize.ShloMosaic.ValueIdx

variable {F : FTy → Type} [FloatOps F]

theorem hz_blk1 : (![0, 0, 0] : Fin 3 → Nat) = fun _ => 0 := funext fun a => by fin_cases a <;> rfl

/-- The gate rows of a grid point: the 256 rows of the G slab starting at row 256 · i₁, loaded through the rectangle
    whose row offset the body computes from the point's second coordinate. -/
def gateRows (i : grid1.Coords) (x2 : Vec F S1x4096x256 .bf16) : Vec F S1x256x256 .bf16 :=
  View.ld x2 (Rect.unit (s := S1x4096x256) (k1_off1 i) S1x256x256.size (k1_off1_inb i))

/-- What the point leaves in the numerator's staging buffer is the numerator payload of the loaded blocks. -/
theorem out4_eq (c : Dev nD) (i : grid1.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x256 .f32) (harg6 : arg6.IsWhole) (arg7 : Memref sig .tc .vmem S1x256x1 .f32) (harg7 : arg7.IsWhole)
    (x0 : Vec F S1x256x256 .bf16) (x1 : Vec F S1x4096x256 .bf16) (x2 : Vec F S1x4096x256 .bf16) (x3 : Vec F S1x4096x256 .bf16) :
    out1_A_4 c i arg2 harg2 arg3 harg3 arg4 harg4 arg5 harg5 arg6 harg6 arg7 harg7 x0 x1 x2 x3 = k1_pay4 x0 x1 x2 x3 (gateRows i x2) := by
  unfold out1_A_4
  rw [View.read_writes_eq_canon _ _ _ (cover1_A_4 c i arg2 harg2 arg3 harg3 arg4 harg4 arg5 harg5 arg6 harg6 arg7 harg7 x0 x1 x2 x3)]
  unfold kernelRun1_A
  dsimp only
  try sl_unfold_words
  rw [View.canon_unit_zero hz_blk1]
  simp only [View.readAt_eq_ld, harg2.read_unread, harg3.read_unread, harg4.read_unread, harg5.read_unread,
    View.ld_unit_zero (S := S1x256x256) hz_blk1, View.ld_unit_zero (S := S1x4096x256) hz_blk1]
  rfl

/-- What the point leaves in the row sums' staging buffer is the row-sum payload of the loaded blocks. -/
theorem out5_eq (c : Dev nD) (i : grid1.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x256 .f32) (harg6 : arg6.IsWhole) (arg7 : Memref sig .tc .vmem S1x256x1 .f32) (harg7 : arg7.IsWhole)
    (x0 : Vec F S1x256x256 .bf16) (x1 : Vec F S1x4096x256 .bf16) (x2 : Vec F S1x4096x256 .bf16) (x3 : Vec F S1x4096x256 .bf16) :
    out1_A_5 c i arg2 harg2 arg3 harg3 arg4 harg4 arg5 harg5 arg6 harg6 arg7 harg7 x0 x1 x2 x3 = k1_pay1 (k1_pay3 x0 x1 x2 (gateRows i x2)) := by
  unfold out1_A_5
  rw [View.read_writes_eq_canon _ _ _ (cover1_A_5 c i arg2 harg2 arg3 harg3 arg4 harg4 arg5 harg5 arg6 harg6 arg7 harg7 x0 x1 x2 x3)]
  unfold kernelRun1_A
  dsimp only
  try sl_unfold_words
  rw [View.canon_unit_zero hz_blk1]
  simp only [View.readAt_eq_ld, harg2.read_unread, harg3.read_unread, harg4.read_unread,
    View.ld_unit_zero (S := S1x256x256) hz_blk1, View.ld_unit_zero (S := S1x4096x256) hz_blk1]
  rfl

/-- The row offset the body computes, as a number: 256 times the point's second coordinate (no wrap-around: the
    coordinate is below 16). -/
theorem off1_row (i : grid1.Coords) : k1_off1 i 1 = (i 1).val * 256 := by
  have key : ∀ n : Fin 16, (Scalar.indexCast (Scalar.muli (BitVec.ofNat 32 n.val) 256#32)).toNat = n.val * 256 := by decide
  exact key ⟨(i 1).val, (i 1).isLt⟩

/-- The gate rows read at coordinates: row `a` of the block is row 256 · i₁ + a of the slab. -/
theorem gateRows_apply (i : grid1.Coords) (x2 : Vec F S1x4096x256 .bf16) (a : Fin 256) (d : Fin 256) :
    gateRows i x2 (ix3 (0 : Fin 1) a d)
      = x2 (ix3 (0 : Fin 1) (⟨(i 1).val * 256 + a.val, by have h16 : (i 1).val < 16 := (i 1).isLt; have := a.isLt; omega⟩ : Fin 4096) d) := by
  unfold gateRows
  show x2 _ = x2 _
  refine congrArg x2 (funext fun ax => Fin.ext ?_)
  match ax with
  | ⟨0, _⟩ => rfl
  | ⟨1, _⟩ =>
    show k1_off1 i 1 + 1 * a.val = (i 1).val * 256 + a.val
    rw [off1_row, Nat.one_mul]
  | ⟨2, _⟩ =>
    show 0 + 1 * d.val = d.val
    rw [Nat.one_mul, Nat.zero_add]

end Cert.KernelIdeal.Hand

end
-- ==== Proof.KRegion1.lean ====
/-
  Region 1 as a whole: from the stacked keys K, queries Q, gates G and values V that it finds it leaves the numerator
  array, entry (b, r, j) = Σ_s S_b[r,s] · V[b,s,j], and the row sums, entry (b, r, 0) = Σ_s S_b[r,s].

  At point t = 16·b + i the body's two stores are the numerator and the row sums of rows 256·i … 256·i + 255 of branch b:
  the key block is those rows of K, the gate rows are those rows of the G slab, and the slabs are the whole of branch b.
-/
import proofs.«126589_j77129022701585_2_alg».proof.Proof.KRegion1a
import proofs.«126589_j77129022701585_2_alg».proof.Proof.KRun1

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- Entry (a, s) of point `t`'s score block is the score of row 256·(t % 16) + a against row s in branch t / 16. -/
theorem scoreBlk_at (c : Dev nD) (t : Fin cfg1.N) (a : Fin 256) (s : Fin 4096) (hN : t.val < 32) :
    k1_pay2 (iblk1 V c 0 t) (iblk1 V c 1 t) (iblk1 V c 2 t) (gateRows (grid1.coords t) (iblk1 V c 2 t)) (ix2 a s)
      = scoreAt (V c main_v0_0) (V c main_v0_1) (V c main_v0_3) (⟨t.val / 16, by omega⟩ : Fin 2) (⟨t.val % 16 * 256 + a.val, by omega⟩ : Fin 4096) s := by
  have e := idx1 t
  refine (scoreBlk_apply (iblk1 V c 0 t) (iblk1 V c 1 t) (iblk1 V c 2 t) (gateRows (grid1.coords t) (iblk1 V c 2 t)) a s).trans ?_
  show _ = scoreAt (V c main_v0_0) (V c main_v0_1) (V c main_v0_3) (⟨t.val / 16, by omega⟩ : Fin 2) (⟨t.val % 16 * 256 + a.val, by omega⟩ : Fin 4096) s
  unfold scoreAt
  have hg : ∀ d : Fin 256, gateRows (grid1.coords t) (iblk1 V c 2 t) (ix3 (0 : Fin 1) a d)
      = (V c main_v0_3 : S2x4096x256.Idx → EReal) (ix3 (⟨t.val / 16, by omega⟩ : Fin 2) (⟨t.val % 16 * 256 + a.val, by omega⟩ : Fin 4096) d) := fun d =>
    (gateRows_apply (grid1.coords t) (iblk1 V c 2 t) a d).trans
      (slab2 V c t (⟨(grid1.coords t (1 : Fin 2)).val * 256 + a.val, by omega⟩ : Fin 4096) d (⟨t.val / 16, by omega⟩ : Fin 2) rfl |>.trans
        (congrArg (V c main_v0_3 : S2x4096x256.Idx → EReal) (funext fun x => Fin.ext (by
          match x with
          | ⟨0, _⟩ => rfl
          | ⟨1, _⟩ => show (grid1.coords t (1 : Fin 2)).val * 256 + a.val = t.val % 16 * 256 + a.val; omega
          | ⟨2, _⟩ => rfl))))
  exact congrArg₂ (fun p q : EReal => max (p * Cert.Spec.sixteenth) 0 * Ideal.exp (q * Cert.Spec.sixteenth))
    (Finset.sum_congr rfl fun d _ => congrArg₂ (fun x y : EReal => x * y) (hg d) (slab2 V c t s d _ rfl))
    (Finset.sum_congr rfl fun d _ => congrArg₂ (fun x y : EReal => x * y) (kblk V c t a d _ _ rfl rfl) (slab1 V c t s d _ rfl))

/-- What point `t` writes back through the numerator window. -/
theorem flushed4 (c : Dev nD) (t : Fin cfg1.N) :
    (dat1 V c).flushed 4 t = ((cfg1.win 4).blk t).view.read (Elt Ideal) (numFull (V c main_v0_0) (V c main_v0_1) (V c main_v0_3) (V c main_v0_2)) := by
  show (cfg1.win 4).cut (grid1.coords t) ((dat1 V c).after 4 t) = _
  rw [after1_4]
  unfold outsAt1
  dsimp only
  rw [out4_eq]
  have hN : t.val < 32 := Nat.lt_of_lt_of_eq t.isLt N_1
  have e := idx1 t
  funext y
  obtain ⟨u, a, j, rfl⟩ : ∃ (u : Fin 1) (a : Fin 256) (j : Fin 256), y = ix3 u a j := ⟨y 0, y 1, y 2, eq_ix3 y⟩
  show k1_pay4 (iblk1 V c 0 t) (iblk1 V c 1 t) (iblk1 V c 2 t) (iblk1 V c 3 t) (gateRows (grid1.coords t) (iblk1 V c 2 t)) (ix3 u a j)
    = numFull (V c main_v0_0) (V c main_v0_1) (V c main_v0_3) (V c main_v0_2) (((cfg1.win 4).blk t).view.emb (ix3 u a j))
  refine (numBlk_apply (iblk1 V c 0 t) (iblk1 V c 1 t) (iblk1 V c 2 t) (iblk1 V c 3 t) (gateRows (grid1.coords t) (iblk1 V c 2 t)) u a j).trans ?_
  have hidx : ((cfg1.win 4).blk t).view.emb (ix3 u a j) = ix3 (⟨t.val / 16, by omega⟩ : Fin 2) (⟨t.val % 16 * 256 + a.val, by omega⟩ : Fin 4096) j := by
    funext x; apply Fin.ext
    match x with
    | ⟨0, _⟩ => show win1_4.index t (0 : Fin 3) * 1 + 1 * u.val = t.val / 16; have := u.isLt; omega
    | ⟨1, _⟩ => show win1_4.index t (1 : Fin 3) * 256 + 1 * a.val = t.val % 16 * 256 + a.val; omega
    | ⟨2, _⟩ => show win1_4.index t (2 : Fin 3) * 256 + 1 * j.val = j.val; omega
  rw [hidx]
  unfold numFull
  refine Finset.sum_congr rfl fun s _ => congrArg₂ (fun x y : EReal => x * y) (scoreBlk_at V c t a s hN) (slab3 V c t s j _ rfl)

/-- What point `t` writes back through the row-sum window. -/
theorem flushed5 (c : Dev nD) (t : Fin cfg1.N) :
    (dat1 V c).flushed 5 t = ((cfg1.win 5).blk t).view.read (Elt Ideal) (rowsumFull (V c main_v0_0) (V c main_v0_1) (V c main_v0_3)) := by
  show (cfg1.win 5).cut (grid1.coords t) ((dat1 V c).after 5 t) = _
  rw [after1_5]
  unfold outsAt1
  dsimp only
  rw [out5_eq]
  have hN : t.val < 32 := Nat.lt_of_lt_of_eq t.isLt N_1
  have e := idx1 t
  funext y
  obtain ⟨u, a, z, rfl⟩ : ∃ (u : Fin 1) (a : Fin 256) (z : Fin 1), y = ix3 u a z := ⟨y 0, y 1, y 2, eq_ix3 y⟩
  show k1_pay1 (k1_pay3 (iblk1 V c 0 t) (iblk1 V c 1 t) (iblk1 V c 2 t) (gateRows (grid1.coords t) (iblk1 V c 2 t))) (ix3 u a z)
    = rowsumFull (V c main_v0_0) (V c main_v0_1) (V c main_v0_3) (((cfg1.win 5).blk t).view.emb (ix3 u a z))
  refine (rowsumBlk_apply (iblk1 V c 0 t) (iblk1 V c 1 t) (iblk1 V c 2 t) (gateRows (grid1.coords t) (iblk1 V c 2 t)) u a z).trans ?_
  have hidx : ((cfg1.win 5).blk t).view.emb (ix3 u a z) = ix3 (⟨t.val / 16, by omega⟩ : Fin 2) (⟨t.val % 16 * 256 + a.val, by omega⟩ : Fin 4096) (0 : Fin 1) := by
    funext x; apply Fin.ext
    match x with
    | ⟨0, _⟩ => show win1_5.index t (0 : Fin 3) * 1 + 1 * u.val = t.val / 16; have := u.isLt; omega
    | ⟨1, _⟩ => show win1_5.index t (1 : Fin 3) * 256 + 1 * a.val = t.val % 16 * 256 + a.val; omega
    | ⟨2, _⟩ => show win1_5.index t (2 : Fin 3) * 1 + 1 * z.val = 0; have := z.isLt; omega
  rw [hidx]
  unfold rowsumFull
  exact Finset.sum_congr rfl fun s _ => scoreBlk_at V c t a s hN

/-- The numerator array after region 1. -/
theorem final4 (c : Dev nD) : (dat1 V c).arrAt 4 cfg1.N = numFull (V c main_v0_0) (V c main_v0_1) (V c main_v0_3) (V c main_v0_2) :=
  (dat1 V c).arrAt_eq_of_cover 4 _ (fun t _ => flushed4 V c t) cover1_4

/-- The row sums after region 1. -/
theorem final5 (c : Dev nD) : (dat1 V c).arrAt 5 cfg1.N = rowsumFull (V c main_v0_0) (V c main_v0_1) (V c main_v0_3) :=
  (dat1 V c).arrAt_eq_of_cover 5 _ (fun t _ => flushed5 V c t) cover1_5

end Cert.KernelIdeal.Hand

end
-- ==== Proof.KBridge.lean ====
/-
  The stacked arrays against the specification: restricted to branch b, the score built from the stacked keys, queries and
  gates is the specification's score matrix of that branch's projections, and the kernel's branch quotient — the
  numerator entry over the sum of all the row sums — is the specification's `numOver`.
-/
import proofs.«126589_j77129022701585_2_alg».proof.Proof.KRegion0
import proofs.«126589_j77129022701585_2_alg».proof.Proof.KRegion1a

noncomputable section

namespace Cert.KernelIdeal.Hand

open Cert.KernelIdeal Idealize.ShloMosaic Idealize.ShloMosaic.ValueIdx Cert.Spec

theorem stack2_zero (f g : Mat 4096 256) (r : Fin 4096) (d : Fin 256) : stack2 f g (ix3 (0 : Fin 2) r d) = f (ix2 r d) := rfl
theorem stack2_one (f g : Mat 4096 256) (r : Fin 4096) (d : Fin 256) : stack2 f g (ix3 (1 : Fin 2) r d) = g (ix2 r d) := rfl

/-- Branch 1's score from the stacked arrays is the specification's. -/
theorem scoreAt_zero (K1 K2 Q1 Q2 G1 G2 : Mat 4096 256) (r s : Fin 4096) :
    scoreAt (stack2 K1 K2) (stack2 Q1 Q2) (stack2 G1 G2) (0 : Fin 2) r s = score K1 Q1 G1 (ix2 r s) := by
  simp only [scoreAt, stack2_zero]
  rfl

/-- Branch 2's score from the stacked arrays is the specification's. -/
theorem scoreAt_one (K1 K2 Q1 Q2 G1 G2 : Mat 4096 256) (r s : Fin 4096) :
    scoreAt (stack2 K1 K2) (stack2 Q1 Q2) (stack2 G1 G2) (1 : Fin 2) r s = score K2 Q2 G2 (ix2 r s) := by
  simp only [scoreAt, stack2_one]
  rfl

/-- Branch 1's quotient: numerator entry over the total of the row sums. -/
theorem quot_zero (K1 K2 Q1 Q2 G1 G2 W1 W2 : Mat 4096 256) (a : Fin 4096) (b : Fin 256) :
    Ideal.div (numFull (stack2 K1 K2) (stack2 Q1 Q2) (stack2 G1 G2) (stack2 W1 W2) (ix3 (0 : Fin 2) a b))
        (∑ i : Fin 4096, rowsumFull (stack2 K1 K2) (stack2 Q1 Q2) (stack2 G1 G2) (ix3 (0 : Fin 2) i (0 : Fin 1)))
      = numOver (score K1 Q1 G1) W1 (ix2 a b) := by
  show Ideal.div (∑ s : Fin 4096, scoreAt (stack2 K1 K2) (stack2 Q1 Q2) (stack2 G1 G2) (0 : Fin 2) a s * stack2 W1 W2 (ix3 (0 : Fin 2) s b))
        (∑ i : Fin 4096, ∑ s : Fin 4096, scoreAt (stack2 K1 K2) (stack2 Q1 Q2) (stack2 G1 G2) (0 : Fin 2) i s)
      = Ideal.div (∑ t : Fin 4096, score K1 Q1 G1 (ix2 a t) * W1 (ix2 t b)) (∑ i : Fin 4096, ∑ t : Fin 4096, score K1 Q1 G1 (ix2 i t))
  simp only [scoreAt_zero, stack2_zero]

/-- Branch 2's quotient. -/
theorem quot_one (K1 K2 Q1 Q2 G1 G2 W1 W2 : Mat 4096 256) (a : Fin 4096) (b : Fin 256) :
    Ideal.div (numFull (stack2 K1 K2) (stack2 Q1 Q2) (stack2 G1 G2) (stack2 W1 W2) (ix3 (1 : Fin 2) a b))
        (∑ i : Fin 4096, rowsumFull (stack2 K1 K2) (stack2 Q1 Q2) (stack2 G1 G2) (ix3 (1 : Fin 2) i (0 : Fin 1)))
      = numOver (score K2 Q2 G2) W2 (ix2 a b) := by
  show Ideal.div (∑ s : Fin 4096, scoreAt (stack2 K1 K2) (stack2 Q1 Q2) (stack2 G1 G2) (1 : Fin 2) a s * stack2 W1 W2 (ix3 (1 : Fin 2) s b))
        (∑ i : Fin 4096, ∑ s : Fin 4096, scoreAt (stack2 K1 K2) (stack2 Q1 Q2) (stack2 G1 G2) (1 : Fin 2) i s)
      = Ideal.div (∑ t : Fin 4096, score K2 Q2 G2 (ix2 a t) * W2 (ix2 t b)) (∑ i : Fin 4096, ∑ t : Fin 4096, score K2 Q2 G2 (ix2 i t))
  simp only [scoreAt_one, stack2_one]

end Cert.KernelIdeal.Hand

end
-- ==== Proof.KTail.lean ====
/-
  The kernel's host tail, read off the run of @main.

  After its two regions @main holds, per branch b, the numerators num[b,i,j] = Σ_t S_b[i,t]·V_b[t,j] and the row sums
  rs[b,i,0] = Σ_t S_b[i,t]. The twenty host operations that follow add the row sums of each branch into its total,
  divide that branch's numerators by the total, place the two quotients side by side along the columns, scale by
  the literal 0.1 (never evaluated) and add x. This module states that tail as one function of the three arrays,
  reads the run's last buffer as that function of the contents the second region leaves, and reads the function
  at an index.
-/
import proofs.«126589_j77129022701585_2_alg».proof.Proof.Gen.KernelIdeal.Frame
import proofs.«126589_j77129022701585_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

/-! ## The tail as one function -/

/-- The two branch totals: the row sums of each branch added up (from the zero word), as a vector of two. -/
def totals (rs : S2x4096x1.Idx → EReal) : S2.Idx → EReal :=
  shapeCast S2 (Host.reduceAdd (F := Ideal) (φ := .f32) rs (constant (F := Ideal) S_ .f32 0x00000000#32)
    reducesTo_S2x4096x1_S2x1_d1 h_S_) shapeCasts_S2x1_S2

/-- Branch 0's numerators over branch 0's total. -/
def quot0 (num : S2x4096x256.Idx → EReal) (tot : S2.Idx → EReal) : S4096x256.Idx → EReal :=
  Host.divf (F := Ideal) (φ := .f32)
    (shapeCast S4096x256 (extractStridedSlice S1x4096x256 ![0, 0, 0] num slices_S2x4096x256_S1x4096x256_0_0_0)
      shapeCasts_S1x4096x256_S4096x256)
    (broadcastInDim S4096x256 ![] bcast_S_S4096x256
      (shapeCast S_ (extractStridedSlice S1 ![0] tot slices_S2_S1_0) shapeCasts_S1_S_))

/-- Branch 1's numerators over branch 1's total. -/
def quot1 (num : S2x4096x256.Idx → EReal) (tot : S2.Idx → EReal) : S4096x256.Idx → EReal :=
  Host.divf (F := Ideal) (φ := .f32)
    (shapeCast S4096x256 (extractStridedSlice S1x4096x256 ![1, 0, 0] num slices_S2x4096x256_S1x4096x256_1_0_0)
      shapeCasts_S1x4096x256_S4096x256)
    (broadcastInDim S4096x256 ![] bcast_S_S4096x256
      (shapeCast S_ (extractStridedSlice S1 ![1] tot slices_S2_S1_1) shapeCasts_S1_S_))

/-- The tail: the two quotients side by side, times the literal 0.1, plus x. -/
def tailOf (num : S2x4096x256.Idx → EReal) (rs : S2x4096x1.Idx → EReal) (x : S4096x512.Idx → EReal) :
    S4096x512.Idx → EReal :=
  addf (F := Ideal) (φ := .f32)
    (mulf (F := Ideal) (φ := .f32)
      (concatenate S4096x512 1 [⟨S4096x256, quot0 num (totals rs)⟩, ⟨S4096x256, quot1 num (totals rs)⟩]
        concatenates_S4096x256_S4096x256_S4096x512_d1)
      (broadcastInDim S4096x512 ![] bcast_S_S4096x512 (constant (F := Ideal) S_ .f32 0x3DCCCCCD#32)))
    x

/-! ## The tail at an index -/

/-- Joining two 4096 × 256 arrays along the columns: column c < 256 reads the first at c, any other column the
    second at c - 256. -/
theorem concat_cols (f1 f2 : S4096x256.Idx → EReal) (j : S4096x512.Idx) :
    concatenate S4096x512 1 [⟨S4096x256, f1⟩, ⟨S4096x256, f2⟩] concatenates_S4096x256_S4096x256_S4096x512_d1 j
      = if h : (j 1).val < 256 then f1 (ix2 (j 0) ⟨(j 1).val, h⟩)
        else f2 (ix2 (j 0) ⟨(j 1).val - 256, by have := (j 1).isLt; simp at this; omega⟩) := by
  by_cases h : (j 1).val < 256
  · rw [dif_pos h]
    exact concatenate_pair_apply_left 1 f1 f2 _ j rfl (ix2 (j 0) ⟨(j 1).val, h⟩)
      (fun b => match b with | ⟨0, _⟩ => rfl | ⟨1, _⟩ => rfl)
  · rw [dif_neg h]
    have h2 : (j 1).val < 512 := (j 1).isLt
    refine concatenate_pair_apply_right 1 f1 f2 _ j rfl rfl (ix2 (j 0) ⟨(j 1).val - 256, by omega⟩)
      (fun b hb => match b, hb with | ⟨0, _⟩, _ => rfl | ⟨1, _⟩, hb => absurd rfl hb) ?_
    show (j 1).val - 256 + 256 = (j 1).val
    omega

/-- Branch b's total is the sum of its 4096 row sums: the reduction starts from the zero word, which adds nothing. -/
theorem totals_apply (rs : S2x4096x1.Idx → EReal) (b : Fin 2) :
    totals rs (ix1 b) = ∑ i : Fin 4096, rs (ix3 b i (0 : Fin 1)) := by
  unfold totals
  rw [shapeCast_apply _ shapeCasts_S2x1_S2 (ix1 b) (ix2 b (0 : Fin 1)) (by
    rw [Shape.rowMajor_val_two, Shape.rowMajor_val_one]
    show b.val * 1 + 0 = b.val
    omega)]
  simp only [Host.reduceAdd, Ideal.hostReduceAdd_def]
  rw [Ideal.hostReduceAdd_single reducesTo_S2x4096x1_S2x1_d1 (by decide)]
  show Ideal.ofBits .f32 0x00000000#32 + _ = _
  rw [Ideal.ofBits_zero_f32, zero_add]
  refine Finset.sum_congr rfl fun k _ => ?_
  exact congrArg rs (funext fun a => Fin.ext (by match a with | ⟨0, _⟩ => rfl | ⟨1, _⟩ => rfl | ⟨2, _⟩ => rfl))

/-- Branch 0's quotient at (i, j): its numerator there over the first entry of the totals. -/
theorem quot0_apply (num : S2x4096x256.Idx → EReal) (tot : S2.Idx → EReal) (i : Fin 4096) (j : Fin 256) :
    quot0 num tot (ix2 i j) = Ideal.div (num (ix3 (0 : Fin 2) i j)) (tot (ix1 (0 : Fin 2))) := by
  show Ideal.div
      (shapeCast S4096x256 (extractStridedSlice S1x4096x256 ![0, 0, 0] num slices_S2x4096x256_S1x4096x256_0_0_0)
        shapeCasts_S1x4096x256_S4096x256 (ix2 i j))
      (broadcastInDim S4096x256 ![] bcast_S_S4096x256
        (shapeCast S_ (extractStridedSlice S1 ![0] tot slices_S2_S1_0) shapeCasts_S1_S_) (ix2 i j)) = _
  refine congrArg₂ Ideal.div ?_ ?_
  · refine (shapeCast_1ab_ab_apply _ shapeCasts_S1x4096x256_S4096x256 i j).trans ?_
    exact extractStridedSlice_apply ![0, 0, 0] num slices_S2x4096x256_S1x4096x256_0_0_0 (ix3 (0 : Fin 1) i j)
      (ix3 (0 : Fin 2) i j)
      (fun a => match a with | ⟨0, _⟩ => rfl | ⟨1, _⟩ => (Nat.zero_add _).symm | ⟨2, _⟩ => (Nat.zero_add _).symm)
  · refine (broadcastInDim_apply ![] bcast_S_S4096x256 _ (ix2 i j) ix0 (fun a => a.elim0)).trans ?_
    refine (shapeCast_apply _ shapeCasts_S1_S_ ix0 (ix1 (0 : Fin 1)) (by
      rw [Shape.rowMajor_val_one]; exact (Shape.rowMajorPi_zero _ _).symm)).trans ?_
    exact extractStridedSlice_apply ![0] tot slices_S2_S1_0 (ix1 (0 : Fin 1)) (ix1 (0 : Fin 2))
      (fun a => match a with | ⟨0, _⟩ => rfl)

/-- Branch 1's quotient at (i, j): its numerator there over the second entry of the totals. -/
theorem quot1_apply (num : S2x4096x256.Idx → EReal) (tot : S2.Idx → EReal) (i : Fin 4096) (j : Fin 256) :
    quot1 num tot (ix2 i j) = Ideal.div (num (ix3 (1 : Fin 2) i j)) (tot (ix1 (1 : Fin 2))) := by
  show Ideal.div
      (shapeCast S4096x256 (extractStridedSlice S1x4096x256 ![1, 0, 0] num slices_S2x4096x256_S1x4096x256_1_0_0)
        shapeCasts_S1x4096x256_S4096x256 (ix2 i j))
      (broadcastInDim S4096x256 ![] bcast_S_S4096x256
        (shapeCast S_ (extractStridedSlice S1 ![1] tot slices_S2_S1_1) shapeCasts_S1_S_) (ix2 i j)) = _
  refine congrArg₂ Ideal.div ?_ ?_
  · refine (shapeCast_1ab_ab_apply _ shapeCasts_S1x4096x256_S4096x256 i j).trans ?_
    exact extractStridedSlice_apply ![1, 0, 0] num slices_S2x4096x256_S1x4096x256_1_0_0 (ix3 (0 : Fin 1) i j)
      (ix3 (1 : Fin 2) i j)
      (fun a => match a with | ⟨0, _⟩ => rfl | ⟨1, _⟩ => (Nat.zero_add _).symm | ⟨2, _⟩ => (Nat.zero_add _).symm)
  · refine (broadcastInDim_apply ![] bcast_S_S4096x256 _ (ix2 i j) ix0 (fun a => a.elim0)).trans ?_
    refine (shapeCast_apply _ shapeCasts_S1_S_ ix0 (ix1 (0 : Fin 1)) (by
      rw [Shape.rowMajor_val_one]; exact (Shape.rowMajorPi_zero _ _).symm)).trans ?_
    exact extractStridedSlice_apply ![1] tot slices_S2_S1_1 (ix1 (0 : Fin 1)) (ix1 (1 : Fin 2))
      (fun a => match a with | ⟨0, _⟩ => rfl)

/-- Branch b's quotient matrix: each numerator over the branch's total of row sums. -/
def quotOf (num : S2x4096x256.Idx → EReal) (rs : S2x4096x1.Idx → EReal) (b : Fin 2) : Cert.Spec.Mat 4096 256 :=
  fun p => Ideal.div (num (ix3 b (p 0) (p 1))) (∑ i : Fin 4096, rs (ix3 b i (0 : Fin 1)))

/-- The tail is the specification's side-by-side arrangement of the two quotient matrices, scaled, plus x. -/
theorem tailOf_eq (num : S2x4096x256.Idx → EReal) (rs : S2x4096x1.Idx → EReal) (x : S4096x512.Idx → EReal) :
    tailOf num rs x = Cert.Spec.outOf (quotOf num rs 0) (quotOf num rs 1) x := by
  funext j
  show concatenate S4096x512 1 [⟨S4096x256, quot0 num (totals rs)⟩, ⟨S4096x256, quot1 num (totals rs)⟩]
        concatenates_S4096x256_S4096x256_S4096x512_d1 j * Ideal.ofBits .f32 0x3DCCCCCD#32 + x j = _
  rw [concat_cols]
  by_cases h : (j 1).val < 256
  · have e : Cert.Spec.outOf (quotOf num rs 0) (quotOf num rs 1) x j
        = quotOf num rs 0 (ix2 (j 0) ⟨(j 1).val, h⟩) * Ideal.ofBits .f32 0x3DCCCCCD#32 + x j := by
      unfold Cert.Spec.outOf; rw [dif_pos h]
    rw [e, dif_pos h]
    refine congrArg (fun y : EReal => y * Ideal.ofBits .f32 0x3DCCCCCD#32 + x j) ?_
    exact (quot0_apply num (totals rs) (j 0) ⟨(j 1).val, h⟩).trans
      (congrArg (Ideal.div (num (ix3 (0 : Fin 2) (j 0) ⟨(j 1).val, h⟩))) (totals_apply rs 0))
  · have e : Cert.Spec.outOf (quotOf num rs 0) (quotOf num rs 1) x j
        = quotOf num rs 1 (ix2 (j 0) ⟨(j 1).val - 256, by have := (j 1).isLt; simp at this; omega⟩)
          * Ideal.ofBits .f32 0x3DCCCCCD#32 + x j := by
      unfold Cert.Spec.outOf; rw [dif_neg h]
    rw [e, dif_neg h]
    refine congrArg (fun y : EReal => y * Ideal.ofBits .f32 0x3DCCCCCD#32 + x j) ?_
    exact (quot1_apply num (totals rs) (j 0) ⟨(j 1).val - 256, by have := (j 1).isLt; simp at this; omega⟩).trans
      (congrArg (Ideal.div (num (ix3 (1 : Fin 2) (j 0)
        ⟨(j 1).val - 256, by have := (j 1).isLt; simp at this; omega⟩))) (totals_apply rs 1))

/-- The tail at an index: the column picks the branch; that branch's numerator over its total, scaled, plus x. -/
theorem tailOf_apply (num : S2x4096x256.Idx → EReal) (rs : S2x4096x1.Idx → EReal) (x : S4096x512.Idx → EReal)
    (j : S4096x512.Idx) :
    tailOf num rs x j
      = (if h : (j 1).val < 256 then
            Ideal.div (num (ix3 (0 : Fin 2) (j 0) ⟨(j 1).val, h⟩)) (∑ i : Fin 4096, rs (ix3 (0 : Fin 2) i (0 : Fin 1)))
          else Ideal.div (num (ix3 (1 : Fin 2) (j 0) ⟨(j 1).val - 256, by have := (j 1).isLt; simp at this; omega⟩))
            (∑ i : Fin 4096, rs (ix3 (1 : Fin 2) i (0 : Fin 1))))
        * Ideal.ofBits .f32 0x3DCCCCCD#32 + x j := by
  rw [tailOf_eq]
  rfl

/-! ## The run's last buffer -/

variable (m : (ℓ : Loc nD τ sig) → Buf (Elt Ideal) ℓ) (ρ : Dev nD → PrngReg)

set_option maxHeartbeats 2000000 in
/-- The run's last buffer holds the tail of what the second region leaves in the numerators, the row sums and x. -/
theorem W3_result (c : Dev nD) :
    W3 m ρ c (Proc.devRef .tc main_v19)
      = tailOf (W2 m ρ c (Proc.devRef .tc main_v1_0)) (W2 m ρ c (Proc.devRef .tc main_v1_1))
          (W2 m ρ c (Proc.devRef .tc main_arg0)) := by
  show StableHlo.after hostOps2 (W2 m ρ c) (Proc.devRef .tc main_v19) = _
  after_results_simp
  rfl

/-! ## The run of @main, with its result named -/

-- the launch theorem's implicit arguments are found by unifying its conclusion with this one, which takes unfolding
-- plain definitions in a metavariable's type
set_option backward.isDefEq.respectTransparency.types false in
/-- From any memory with zero counters, every weakly fair execution of @main on the TensorCores terminates, nothing
    faulting; every final state has the result buffer at the tail of what the second region leaves, and the ten
    argument arrays as launched. -/
theorem run_result : θ_run defs (onTc (τ := τ) (main (F := Ideal))) ⟨m, fun _ => 0, ρ⟩ (fun r => ∀ c : Dev nD,
      r.2.mem ((c.tc : Thread nD τ).loc main_v19) = W3 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v19 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Hand

end
-- ==== Proof.KValue.lean ====
/-
  The kernel's result as one function of its ten arguments.

  The run's last buffer is the host tail of what region 1 leaves; region 1's arrays are the numerators and row sums of
  the stacked keys, queries, gates and values it finds; those are region 0's outputs, both branches' projections of the
  arguments stacked. Branch by branch the tail's quotient — a numerator entry over the sum of all the row sums — is the
  specification's `numOver` of that branch's score matrix and value projection.
-/
import proofs.«126589_j77129022701585_2_alg».proof.Proof.KRegion0
import proofs.«126589_j77129022701585_2_alg».proof.Proof.KRegion1
import proofs.«126589_j77129022701585_2_alg».proof.Proof.KBridge
import proofs.«126589_j77129022701585_2_alg».proof.Proof.KTail

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (m : (ℓ : Loc nD τ sig) → Buf (Elt Ideal) ℓ) (ρ : Dev nD → PrngReg)

/-- No region and no host operation writes x: after region 1 its buffer holds what was launched. -/
theorem W2_arg0 (c : Dev nD) : W2 m ρ c (Proc.devRef .tc main_arg0) = m ((c.tc : Thread nD τ).loc main_arg0) :=
  (W2_of_ne m ρ c main_arg0 (by decide)).trans
    ((W1_arr m ρ c 0).trans (((dat0 (V0 m ρ) c).arrAt_in 0 rfl _).trans (A_eq0 (V0 m ρ) c 0)))

/-- The stacked keys as region 1 finds them. -/
theorem V1_K (c : Dev nD) : (V1 m ρ c main_v0_0 : S2x4096x256.Idx → EReal)
    = stack2 (proj (m ((c.tc : Thread nD τ).loc main_arg0)) (m ((c.tc : Thread nD τ).loc main_arg3))) (proj (m ((c.tc : Thread nD τ).loc main_arg0)) (m ((c.tc : Thread nD τ).loc main_arg7))) :=
  (hF0 m ρ c 10).symm.trans (final10 (V0 m ρ) c)

/-- The stacked queries as region 1 finds them. -/
theorem V1_Q (c : Dev nD) : (V1 m ρ c main_v0_1 : S2x4096x256.Idx → EReal)
    = stack2 (proj (m ((c.tc : Thread nD τ).loc main_arg0)) (m ((c.tc : Thread nD τ).loc main_arg4))) (proj (m ((c.tc : Thread nD τ).loc main_arg0)) (m ((c.tc : Thread nD τ).loc main_arg8))) :=
  (hF0 m ρ c 11).symm.trans (final11 (V0 m ρ) c)

/-- The stacked values as region 1 finds them. -/
theorem V1_V (c : Dev nD) : (V1 m ρ c main_v0_2 : S2x4096x256.Idx → EReal)
    = stack2 (proj (m ((c.tc : Thread nD τ).loc main_arg0)) (m ((c.tc : Thread nD τ).loc main_arg5))) (proj (m ((c.tc : Thread nD τ).loc main_arg0)) (m ((c.tc : Thread nD τ).loc main_arg9))) :=
  (hF0 m ρ c 12).symm.trans (final12 (V0 m ρ) c)

/-- The stacked gates as region 1 finds them. -/
theorem V1_G (c : Dev nD) : (V1 m ρ c main_v0_3 : S2x4096x256.Idx → EReal)
    = stack2 (proj (m ((c.tc : Thread nD τ).loc main_arg1)) (m ((c.tc : Thread nD τ).loc main_arg2))) (proj (m ((c.tc : Thread nD τ).loc main_arg1)) (m ((c.tc : Thread nD τ).loc main_arg6))) :=
  (hF0 m ρ c 13).symm.trans (final13 (V0 m ρ) c)

/-- The numerator array after region 1, from the arguments. -/
theorem W2_num (c : Dev nD) : (W2 m ρ c (Proc.devRef .tc main_v1_0) : S2x4096x256.Idx → EReal)
    = numFull (stack2 (proj (m ((c.tc : Thread nD τ).loc main_arg0)) (m ((c.tc : Thread nD τ).loc main_arg3))) (proj (m ((c.tc : Thread nD τ).loc main_arg0)) (m ((c.tc : Thread nD τ).loc main_arg7)))) (stack2 (proj (m ((c.tc : Thread nD τ).loc main_arg0)) (m ((c.tc : Thread nD τ).loc main_arg4))) (proj (m ((c.tc : Thread nD τ).loc main_arg0)) (m ((c.tc : Thread nD τ).loc main_arg8))))
        (stack2 (proj (m ((c.tc : Thread nD τ).loc main_arg1)) (m ((c.tc : Thread nD τ).loc main_arg2))) (proj (m ((c.tc : Thread nD τ).loc main_arg1)) (m ((c.tc : Thread nD τ).loc main_arg6)))) (stack2 (proj (m ((c.tc : Thread nD τ).loc main_arg0)) (m ((c.tc : Thread nD τ).loc main_arg5))) (proj (m ((c.tc : Thread nD τ).loc main_arg0)) (m ((c.tc : Thread nD τ).loc main_arg9)))) := by
  refine (W2_arr m ρ c 4).trans ((final4 (V1 m ρ) c).trans ?_)
  rw [V1_K m ρ c, V1_Q m ρ c, V1_G m ρ c, V1_V m ρ c]

/-- The row sums after region 1, from the arguments. -/
theorem W2_rs (c : Dev nD) : (W2 m ρ c (Proc.devRef .tc main_v1_1) : S2x4096x1.Idx → EReal)
    = rowsumFull (stack2 (proj (m ((c.tc : Thread nD τ).loc main_arg0)) (m ((c.tc : Thread nD τ).loc main_arg3))) (proj (m ((c.tc : Thread nD τ).loc main_arg0)) (m ((c.tc : Thread nD τ).loc main_arg7)))) (stack2 (proj (m ((c.tc : Thread nD τ).loc main_arg0)) (m ((c.tc : Thread nD τ).loc main_arg4))) (proj (m ((c.tc : Thread nD τ).loc main_arg0)) (m ((c.tc : Thread nD τ).loc main_arg8))))
        (stack2 (proj (m ((c.tc : Thread nD τ).loc main_arg1)) (m ((c.tc : Thread nD τ).loc main_arg2))) (proj (m ((c.tc : Thread nD τ).loc main_arg1)) (m ((c.tc : Thread nD τ).loc main_arg6)))) := by
  refine (W2_arr m ρ c 5).trans ((final5 (V1 m ρ) c).trans ?_)
  rw [V1_K m ρ c, V1_Q m ρ c, V1_G m ρ c]

/-- THE RESULT BUFFER after the run is the specification's kernel function of the ten arguments. -/
theorem W3_value (c : Dev nD) : W3 m ρ c (Proc.devRef .tc main_v19)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W3_result, W2_num, W2_rs, W2_arg0, tailOf_eq]
  unfold kernelOut scoreOf
  refine congrArg₂ (fun f g => outOf f g _) (funext fun p => ?_) (funext fun p => ?_)
  · obtain ⟨a, b, rfl⟩ : ∃ (a : Fin 4096) (b : Fin 256), p = ix2 a b := ⟨p 0, p 1, eq_ix2 p⟩
    exact quot_zero _ _ _ _ _ _ _ _ a b
  · obtain ⟨a, b, rfl⟩ : ∃ (a : Fin 4096) (b : Fin 256), p = ix2 a b := ⟨p 0, p 1, eq_ix2 p⟩
    exact quot_one _ _ _ _ _ _ _ _ a b

/-- The run of the idealized kernel: it terminates, nothing faulting, with the result buffer at `kernelOut` of the
    arguments and the arguments as launched. -/
theorem kernel_run : θ_run defs (onTc (τ := τ) (main (F := Ideal))) ⟨m, fun _ => 0, ρ⟩ (fun r => ∀ c : Dev nD,
      r.2.mem ((c.tc : Thread nD τ).loc main_v19) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W3_value m ρ c), (h c).2⟩) (run_result m ρ)

end Cert.KernelIdeal.Hand

end
-- ==== Proof.lean ====
/-
  Two-branch gated attention with a whole-matrix normalisation, kernel against reference, over the extended reals.

  For each branch, with K = x·W_K, Q = x·W_Q, G = box·W_G, V = x·W_V, the scores are
  S[i,t] = max ((G Gᵀ)[i,t] / 16) 0 · exp ((K Qᵀ)[i,t] / 16) and T is their total over the whole 4096 × 4096 matrix.
  The reference normalises first, Σ_t (S[i,t] / T) · V[t,j]; the kernel sums first — its second call leaves the weighted
  sums Σ_t S[i,t] · V[t,j] and the row sums Σ_t S[i,t], the host adds the row sums up — and divides once,
  (Σ_t S[i,t] · V[t,j]) / T. Both then place branch 1 in columns 0–255 and branch 2 in columns 256–511, scale by the
  same literal and add x.

  Up to the scores the two programs are one expression of the arguments on every extended real (a change of float format
  is the identity; dividing by 16 is multiplying by 1/16). The last step moves a factor across a finite sum, which needs
  the scores, the values and the total to be real and the total not zero: every input finite makes them real, and the
  total is not zero by the precondition's second part (a zero total makes the reference's own normalisation 0 / 0).

  The kernel's value is read off its frame run: region 0's four outputs as both branches' projections stacked, region 1's
  two outputs as the numerators and row sums of what it finds, the host tail as the two branch quotients side by side.
-/
import proofs.«126589_j77129022701585_2_alg».proof.Defs
import proofs.«126589_j77129022701585_2_alg».proof.Proof.Gen.Kernel
import proofs.«126589_j77129022701585_2_alg».proof.Proof.Gen.Kernel.Frame
import proofs.«126589_j77129022701585_2_alg».proof.Proof.Gen.KernelIdeal
import proofs.«126589_j77129022701585_2_alg».proof.Proof.Gen.KernelIdeal.Frame
import proofs.«126589_j77129022701585_2_alg».proof.Proof.Gen.ReferenceIdeal
import proofs.«126589_j77129022701585_2_alg».proof.Proof.Gen.ReferenceIdeal.Run
import proofs.«126589_j77129022701585_2_alg».proof.Proof.Gen.ReferenceIdeal.Read
import proofs.«126589_j77129022701585_2_alg».proof.Proof.Gen.Pre_finite_inputs
import proofs.«126589_j77129022701585_2_alg».proof.Proof.RefValue
import proofs.«126589_j77129022701585_2_alg».proof.Proof.Algebra
import proofs.«126589_j77129022701585_2_alg».proof.Proof.PreFacts
import proofs.«126589_j77129022701585_2_alg».proof.Proof.KValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening back a value narrowed to bf16 is the identity on the extended reals. -/
theorem preserves : Cert.preserves_Kernel_KernelIdeal := IdealRules.truncf_extf.statement _ .f32 .bf16

/-- From memories agreeing on the arguments both programs end with the same result: the kernel at the divide-once
    arrangement, the reference at the normalise-first one, equal where every input is real and neither branch's score
    total is zero. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v41_eq, Cert.ReferenceIdeal.RefValue.ref_eq, e0, e1, e2, e3, e4, e5, e6, e7, e8, e9]
  obtain ⟨h0, h1, h2, h3, h4, h5, h6, h7, h8, h9, hT1, hT2⟩ := Cert.Pre_finite_inputs.Decode.of_pre _ _ _ _ _ _ _ _ _ _ (hpre c)
  exact (Cert.Spec.kernelOut_eq_referenceOut _ _ _ _ _ _ _ _ _ _ h0 h1 h2 h3 h4 h5 h6 h7 h8 h9 hT1 hT2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
